-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x16 : Shape := ⟨2, ![1000, 16]⟩
abbrev S1024x500 : Shape := ⟨2, ![1024, 500]⟩
abbrev S500 : Shape := ⟨1, ![500]⟩
abbrev S500x200 : Shape := ⟨2, ![500, 200]⟩
abbrev S200 : Shape := ⟨1, ![200]⟩
abbrev S200x200 : Shape := ⟨2, ![200, 200]⟩
abbrev S1224x1 : Shape := ⟨2, ![1224, 1]⟩
abbrev S1 : Shape := ⟨1, ![1]⟩
abbrev S2x3x1024 : Shape := ⟨3, ![2, 3, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_
  bcast_S_S1024x500 : S_.BroadcastsInDim S1024x500 (![] : Fin 0 → Fin S1024x500.rank)
  reducesTo_S1024x500_S_d0_1 : S1024x500.ReducesTo [0, 1] S_
  bcast_S_S500 : S_.BroadcastsInDim S500 (![] : Fin 0 → Fin S500.rank)
  reducesTo_S500_S_d0 : S500.ReducesTo [0] S_
  bcast_S_S500x200 : S_.BroadcastsInDim S500x200 (![] : Fin 0 → Fin S500x200.rank)
  reducesTo_S500x200_S_d0_1 : S500x200.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S1224x1 : S_.BroadcastsInDim S1224x1 (![] : Fin 0 → Fin S1224x1.rank)
  reducesTo_S1224x1_S_d0_1 : S1224x1.ReducesTo [0, 1] S_
  bcast_S_S1 : S_.BroadcastsInDim S1 (![] : Fin 0 → Fin S1.rank)
  reducesTo_S1_S_d0 : S1.ReducesTo [0] S_
  bcast_S_S2x3x1024 : S_.BroadcastsInDim S2x3x1024 (![] : Fin 0 → Fin S2x3x1024.rank)
  reducesTo_S2x3x1024_S_d0_1_2 : S2x3x1024.ReducesTo [0, 1, 2] S_

variable [Facts]

def fn_part3 {F : FTy → Type} [FloatOps F] (main_arg12 : FVec F S2x3x1024 .f32) (main_v48 : IVec S_ 1) (main_v49 : FVec F S2x3x1024 .f32) (main_v50 : FVec F S2x3x1024 .f32) : IVec S_ 1 :=
  let main_v51 : IVec S2x3x1024 1 := cmpf .olt main_v49 main_v50
  let main_c_19 : IVec S_ 1 := constantI S_ 1 1#1
  let main_v52 : IVec S_ 1 := (fun x v => Host.reduce IntOp.andi x v reducesTo_S2x3x1024_S_d0_1_2 h_S_) main_v51 main_c_19
  let main_v53 : IVec S_ 1 := andi main_v48 main_v52
  let main_v54 : FVec F S2x3x1024 .f32 := Host.absf main_arg12
  let main_cst_20 : FVec F S_ .f32 := constant S_ .f32 0x7F800000#32
  let main_v55 : FVec F S2x3x1024 .f32 := broadcastInDim S2x3x1024 ![] bcast_S_S2x3x1024 main_cst_20
  let main_v56 : IVec S2x3x1024 1 := cmpf .olt main_v54 main_v55
  let main_c_21 : IVec S_ 1 := constantI S_ 1 1#1
  let main_v57 : IVec S_ 1 := (fun x v => Host.reduce IntOp.andi x v reducesTo_S2x3x1024_S_d0_1_2 h_S_) main_v56 main_c_21
  let main_v58 : IVec S_ 1 := andi main_v53 main_v57
  main_v58

def fn_part2 {F : FTy → Type} [FloatOps F] (main_arg8 : FVec F S200 .f32) (main_arg9 : FVec F S1224x1 .f32) (main_arg10 : FVec F S1 .f32) (main_arg11 : FVec F S2x3x1024 .f32) (main_arg12 : FVec F S2x3x1024 .f32) (main_v33 : IVec S_ 1) : IVec S_ 1 :=
  let main_v34 : FVec F S200 .f32 := Host.absf main_arg8
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  let main_v39 : FVec F S1224x1 .f32 := Host.absf main_arg9
  let main_cst_14 : FVec F S_ .f32 := constant S_ .f32 0x7F800000#32
  let main_v40 : FVec F S1224x1 .f32 := broadcastInDim S1224x1 ![] bcast_S_S1224x1 main_cst_14
  let main_v41 : IVec S1224x1 1 := cmpf .olt main_v39 main_v40
  let main_c_15 : IVec S_ 1 := constantI S_ 1 1#1
  let main_v42 : IVec S_ 1 := (fun x v => Host.reduce IntOp.andi x v reducesTo_S1224x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2x3x1024 .f32 := Host.absf main_arg11
  let main_cst_18 : FVec F S_ .f32 := constant S_ .f32 0x7F800000#32
  let main_v50 : FVec F S2x3x1024 .f32 := broadcastInDim S2x3x1024 ![] bcast_S_S2x3x1024 main_cst_18
  fn_part3 (F := F) main_arg12 main_v48 main_v49 main_v50

def fn_part1 {F : FTy → Type} [FloatOps F] (main_arg5 : FVec F S500x200 .f32) (main_arg6 : FVec F S200 .f32) (main_arg7 : FVec F S200x200 .f32) (main_arg8 : FVec F S200 .f32) (main_arg9 : FVec F S1224x1 .f32) (main_arg10 : FVec F S1 .f32) (main_arg11 : FVec F S2x3x1024 .f32) (main_arg12 : FVec F S2x3x1024 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500x200 .f32 := Host.absf main_arg5
  let main_cst_6 : FVec F S_ .f32 := constant S_ .f32 0x7F800000#32
  let main_v20 : FVec F S500x200 .f32 := broadcastInDim S500x200 ![] bcast_S_S500x200 main_cst_6
  let main_v21 : IVec S500x200 1 := cmpf .olt main_v19 main_v20
  let main_c_7 : IVec S_ 1 := constantI S_ 1 1#1
  let main_v22 : IVec S_ 1 := (fun x v => Host.reduce IntOp.andi x v reducesTo_S500x200_S_d0_1 h_S_) main_v21 main_c_7
  let main_v23 : IVec S_ 1 := andi main_v18 main_v22
  let main_v24 : FVec F S200 .f32 := Host.absf main_arg6
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S200x200 .f32 := Host.absf main_arg7
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16384x1024 .f32) (main_arg1 : IVec S16384 32) (main_arg2 : FVec F S1000x16 .f32) (main_arg3 : FVec F S1024x500 .f32) (main_arg4 : FVec F S500 .f32) (main_arg5 : FVec F S500x200 .f32) (main_arg6 : FVec F S200 .f32) (main_arg7 : FVec F S200x200 .f32) (main_arg8 : FVec F S200 .f32) (main_arg9 : FVec F S1224x1 .f32) (main_arg10 : FVec F S1 .f32) (main_arg11 : FVec F S2x3x1024 .f32) (main_arg12 : FVec F S2x3x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x16 .f32 := Host.absf main_arg2
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  let main_v9 : FVec F S1024x500 .f32 := Host.absf main_arg3
  let main_cst_2 : FVec F S_ .f32 := constant S_ .f32 0x7F800000#32
  let main_v10 : FVec F S1024x500 .f32 := broadcastInDim S1024x500 ![] bcast_S_S1024x500 main_cst_2
  let main_v11 : IVec S1024x500 1 := cmpf .olt main_v9 main_v10
  let main_c_3 : IVec S_ 1 := constantI S_ 1 1#1
  let main_v12 : IVec S_ 1 := (fun x v => Host.reduce IntOp.andi x v reducesTo_S1024x500_S_d0_1 h_S_) main_v11 main_c_3
  let main_v13 : IVec S_ 1 := andi main_v8 main_v12
  let main_v14 : FVec F S500 .f32 := Host.absf main_arg4
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg5 main_arg6 main_arg7 main_arg8 main_arg9 main_arg10 main_arg11 main_arg12 main_v13 main_v16
-- ==== Kernel.lean ====
abbrev S16384x1024 : Shape := ⟨2, ![16384, 1024]⟩
abbrev S16384 : Shape := ⟨1, ![16384]⟩
abbrev S1000x16 : Shape := ⟨2, ![1000, 16]⟩
abbrev S1024x500 : Shape := ⟨2, ![1024, 500]⟩
abbrev S500 : Shape := ⟨1, ![500]⟩
abbrev S500x200 : Shape := ⟨2, ![500, 200]⟩
abbrev S200 : Shape := ⟨1, ![200]⟩
abbrev S200x200 : Shape := ⟨2, ![200, 200]⟩
abbrev S1224x1 : Shape := ⟨2, ![1224, 1]⟩
abbrev S1 : Shape := ⟨1, ![1]⟩
abbrev S2x3x1024 : Shape := ⟨3, ![2, 3, 1024]⟩
abbrev S1024x1 : Shape := ⟨2, ![1024, 1]⟩
abbrev S1024 : Shape := ⟨1, ![1024]⟩
abbrev S200x1 : Shape := ⟨2, ![200, 1]⟩
abbrev S1x1x1024 : Shape := ⟨3, ![1, 1, 1024]⟩
abbrev S_ : Shape := ⟨0, ![]⟩
abbrev S1024x7 : Shape := ⟨2, ![1024, 7]⟩
abbrev S6 : Shape := ⟨1, ![6]⟩
abbrev S1x6 : Shape := ⟨2, ![1, 6]⟩
abbrev S1x8 : Shape := ⟨2, ![1, 8]⟩
abbrev S16384x1 : Shape := ⟨2, ![16384, 1]⟩
abbrev S1024x1024 : Shape := ⟨2, ![1024, 1024]⟩
abbrev S1x500 : Shape := ⟨2, ![1, 500]⟩
abbrev S1024x200 : Shape := ⟨2, ![1024, 200]⟩
abbrev S1x200 : Shape := ⟨2, ![1, 200]⟩
abbrev S1x1 : Shape := ⟨2, ![1, 1]⟩

abbrev nBuf : Space → Nat
  | .hbm => 103
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x16, .f32⟩
  | .hbm, ⟨3, _⟩ => ⟨S1024x500, .f32⟩
  | .hbm, ⟨4, _⟩ => ⟨S500, .f32⟩
  | .hbm, ⟨5, _⟩ => ⟨S500x200, .f32⟩
  | .hbm, ⟨6, _⟩ => ⟨S200, .f32⟩
  | .hbm, ⟨7, _⟩ => ⟨S200x200, .f32⟩
  | .hbm, ⟨8, _⟩ => ⟨S200, .f32⟩
  | .hbm, ⟨9, _⟩ => ⟨S1224x1, .f32⟩
  | .hbm, ⟨10, _⟩ => ⟨S1, .f32⟩
  | .hbm, ⟨11, _⟩ => ⟨S2x3x1024, .f32⟩
  | .hbm, ⟨12, _⟩ => ⟨S2x3x1024, .f32⟩
  | .hbm, ⟨13, _⟩ => ⟨S1024x500, .bf16⟩
  | .hbm, ⟨14, _⟩ => ⟨S500x200, .bf16⟩
  | .hbm, ⟨15, _⟩ => ⟨S200x200, .bf16⟩
  | .hbm, ⟨16, _⟩ => ⟨S1024x1, .f32⟩
  | .hbm, ⟨17, _⟩ => ⟨S1024, .f32⟩
  | .hbm, ⟨18, _⟩ => ⟨S200x1, .f32⟩
  | .hbm, ⟨19, _⟩ => ⟨S200x1, .bf16⟩
  | .hbm, ⟨20, _⟩ => ⟨S1x1x1024, .f32⟩
  | .hbm, ⟨21, _⟩ => ⟨S1024, .f32⟩
  | .hbm, ⟨22, _⟩ => ⟨S1x1x1024, .f32⟩
  | .hbm, ⟨23, _⟩ => ⟨S1024, .f32⟩
  | .hbm, ⟨24, _⟩ => ⟨S1x1x1024, .f32⟩
  | .hbm, ⟨25, _⟩ => ⟨S1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S_, .f32⟩
  | .hbm, ⟨50, _⟩ => ⟨S1x1x1024, .f32⟩
  | .hbm, ⟨51, _⟩ => ⟨S1024, .f32⟩
  | .hbm, ⟨52, _⟩ => ⟨S1x1x1024, .f32⟩
  | .hbm, ⟨53, _⟩ => ⟨S1024, .f32⟩
  | .hbm, ⟨54, _⟩ => ⟨S1x1x1024, .f32⟩
  | .hbm, ⟨55, _⟩ => ⟨S1024, .f32⟩
  | .hbm, ⟨56, _⟩ => ⟨S1x1x1024, .f32⟩
  | .hbm, ⟨57, _⟩ => ⟨S1024, .f32⟩
  | .hbm, ⟨58, _⟩ => ⟨S1x1x1024, .f32⟩
  | .hbm, ⟨59, _⟩ => ⟨S1024, .f32⟩
  | .hbm, ⟨60, _⟩ => ⟨S1x1x1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S_, .f32⟩
  | .hbm, ⟨80, _⟩ => ⟨S1024x1, .f32⟩
  | .hbm, ⟨81, _⟩ => ⟨S1024x1, .f32⟩
  | .hbm, ⟨82, _⟩ => ⟨S1024x1, .f32⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S1024x1, .f32⟩
  | .hbm, ⟨87, _⟩ => ⟨S1024x7, .f32⟩
  | .hbm, ⟨88, _⟩ => ⟨S1024x7, .bf16⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S6, .f32⟩
  | .hbm, ⟨96, _⟩ => ⟨S1x6, .f32⟩
  | .hbm, ⟨97, _⟩ => ⟨S_, .i32⟩
  | .hbm, ⟨98, _⟩ => ⟨S_, .f32⟩
  | .hbm, ⟨99, _⟩ => ⟨S1x8, .f32⟩
  | .hbm, ⟨100, _⟩ => ⟨S16384x1024, .bf16⟩
  | .hbm, ⟨101, _⟩ => ⟨S16384x1, .f32⟩
  | .hbm, ⟨102, _⟩ => ⟨S16384x1, .f32⟩
  | .local _ .vmem, ⟨0, _⟩ => ⟨S1024x1024, .bf16⟩
  | .local _ .vmem, ⟨1, _⟩ => ⟨S1024x1024, .bf16⟩
  | .local _ .vmem, ⟨2, _⟩ => ⟨S1024x7, .bf16⟩
  | .local _ .vmem, ⟨3, _⟩ => ⟨S1x8, .f32⟩
  | .local _ .vmem, ⟨4, _⟩ => ⟨S1024x500, .bf16⟩
  | .local _ .vmem, ⟨5, _⟩ => ⟨S500, .f32⟩
  | .local _ .vmem, ⟨6, _⟩ => ⟨S500x200, .bf16⟩
  | .local _ .vmem, ⟨7, _⟩ => ⟨S200, .f32⟩
  | .local _ .vmem, ⟨8, _⟩ => ⟨S200x200, .bf16⟩
  | .local _ .vmem, ⟨9, _⟩ => ⟨S200, .f32⟩
  | .local _ .vmem, ⟨10, _⟩ => ⟨S200x1, .bf16⟩
  | .local _ .vmem, ⟨11, _⟩ => ⟨S1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_c : Ref sig .tc := ⟨.hbm, 97, rfl⟩
abbrev main_call0_v0 : Ref sig .tc := ⟨.hbm, 98, rfl⟩
abbrev main_v78 : Ref sig .tc := ⟨.hbm, 99, rfl⟩
abbrev main_v79 : Ref sig .tc := ⟨.hbm, 100, rfl⟩
abbrev main_v80_0 : Ref sig .tc := ⟨.hbm, 101, rfl⟩
abbrev main_v80_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  slices_S1224x1_S1024x1_0_0 : S1224x1.Slices ![0, 0] S1024x1
  shapeCasts_S1024x1_S1024 : S1024x1.ShapeCasts S1024
  slices_S1224x1_S200x1_1024_0 : S1224x1.Slices ![1024, 0] S200x1
  slices_S2x3x1024_S1x1x1024_0_0_0 : S2x3x1024.Slices ![0, 0, 0] S1x1x1024
  shapeCasts_S1x1x1024_S1024 : S1x1x1024.ShapeCasts S1024
  slices_S2x3x1024_S1x1x1024_0_1_0 : S2x3x1024.Slices ![0, 1, 0] S1x1x1024
  slices_S2x3x1024_S1x1x1024_0_2_0 : S2x3x1024.Slices ![0, 2, 0] S1x1x1024
  reducesTo_S1024_S_d0 : S1024.ReducesTo [0] S_
  h_S_ : 0 < S_.numel
  slices_S2x3x1024_S1x1x1024_1_0_0 : S2x3x1024.Slices ![1, 0, 0] S1x1x1024
  slices_S2x3x1024_S1x1x1024_1_1_0 : S2x3x1024.Slices ![1, 1, 0] S1x1x1024
  slices_S2x3x1024_S1x1x1024_1_2_0 : S2x3x1024.Slices ![1, 2, 0] S1x1x1024
  bcast_S1024_S1024x1_0 : S1024.BroadcastsInDim S1024x1 (![0] : Fin 1 → Fin S1024x1.rank)
  concatenates_S1024x1_S1024x1_S1024x1_S1024x1_S1024x1_S1024x1_S1024x1_S1024x7_d1 : Shape.Concatenates [S1024x1, S1024x1, S1024x1, S1024x1, S1024x1, S1024x1, S1024x1] S1024x7 1
  bcast_S_S1 : S_.BroadcastsInDim S1 (![] : Fin 0 → Fin S1.rank)
  concatenates_S1_S1_S1_S1_S1_S1_S6_d0 : Shape.Concatenates [S1, S1, S1, S1, S1, S1] S6 0
  shapeCasts_S6_S1x6 : S6.ShapeCasts S1x6
  pads_S1x6_S1x8_000_020 : S1x6.Pads (![0, 0] : Fin 2 → Nat) ![0, 2] ![0, 0] S1x8
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1024x500_S1024x500_0_0 : ∀ a, (![0, 0] : Fin 2 → Nat) a + S1024x500.size a ≤ S1024x500.size a
  h_S1024x500 : 0 < S1024x500.numel
  shapeCasts_S1024x500_S1024x500 : S1024x500.ShapeCasts S1024x500
  inb_S500_S500_0 : ∀ a, (![0] : Fin 1 → Nat) a + S500.size a ≤ S500.size a
  h_S500 : 0 < S500.numel
  shapeCasts_S500_S1x500 : S500.ShapeCasts S1x500
  broadcasts_S1x500_S1024x500 : S1x500.Broadcasts S1024x500
  inb_S500x200_S500x200_0_0 : ∀ a, (![0, 0] : Fin 2 → Nat) a + S500x200.size a ≤ S500x200.size a
  h_S500x200 : 0 < S500x200.numel
  shapeCasts_S500x200_S500x200 : S500x200.ShapeCasts S500x200
  inb_S200_S200_0 : ∀ a, (![0] : Fin 1 → Nat) a + S200.size a ≤ S200.size a
  h_S200 : 0 < S200.numel
  shapeCasts_S200_S1x200 : S200.ShapeCasts S1x200
  broadcasts_S1x200_S1024x200 : S1x200.Broadcasts S1024x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  slices_S1024x7_o0_0_S1024x1 : S1024x7.Slices ![0, 0] S1024x1
  slices_S1024x7_o0_1_S1024x1 : S1024x7.Slices ![0, 1] S1024x1
  slices_S1024x7_o0_2_S1024x1 : S1024x7.Slices ![0, 2] S1024x1
  slices_S1024x7_o0_3_S1024x1 : S1024x7.Slices ![0, 3] S1024x1
  slices_S1024x7_o0_4_S1024x1 : S1024x7.Slices ![0, 4] S1024x1
  slices_S1024x7_o0_5_S1024x1 : S1024x7.Slices ![0, 5] S1024x1
  slices_S1024x7_o0_6_S1024x1 : S1024x7.Slices ![0, 6] S1024x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  slices_S1x8_o0_0_S1x1 : S1x8.Slices ![0, 0] S1x1
  inpos_S1x1_p0_0 : ∀ a, (![0, 0] : Fin 2 → Nat) a < S1x1.size a
  slices_S1x8_o0_1_S1x1 : S1x8.Slices ![0, 1] S1x1
  slices_S1x8_o0_2_S1x1 : S1x8.Slices ![0, 2] S1x1
  slices_S1x8_o0_3_S1x1 : S1x8.Slices ![0, 3] S1x1
  slices_S1x8_o0_4_S1x1 : S1x8.Slices ![0, 4] S1x1
  slices_S1x8_o0_5_S1x1 : S1x8.Slices ![0, 5] S1x1
  inb_S1024x1_S1024x1_0_0 : ∀ a, (![0, 0] : Fin 2 → Nat) a + S1024x1.size a ≤ S1024x1.size a
  h_S1024x1 : 0 < S1024x1.numel
  dot_S1024x1024_S1024x500_S1024x500_1_0_0_1_n_n_wf : DotDims.WF S1024x1024 S1024x500 S1024x500 [1] [0] [0] [1] [] []
  dot_S1024x500_S500x200_S1024x200_1_0_0_1_n_n_wf : DotDims.WF S1024x500 S500x200 S1024x200 [1] [0] [0] [1] [] []
  dot_S1024x200_S200x200_S1024x200_1_0_0_1_n_n_wf : DotDims.WF S1024x200 S200x200 S1024x200 [1] [0] [0] [1] [] []
  dot_S1024x200_S200x1_S1024x1_1_0_0_1_n_n_wf : DotDims.WF S1024x200 S200x1 S1024x1 [1] [0] [0] [1] [] []
  dot_S1024x1024_S1024x7_S1024x7_1_0_0_1_n_n_wf : DotDims.WF S1024x1024 S1024x7 S1024x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x7.size a ≤ S1024x7.size a
  hwx0_1 : ∀ i : grid0.Coords, EltTy.bits .bf16 = 32 ∨ (Rect.block (s := S1024x7) S1024x7.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x500.size a ≤ S1024x500.size a
  hwx0_3 : ∀ i : grid0.Coords, EltTy.bits .bf16 = 32 ∨ (Rect.block (s := S1024x500) S1024x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500.size a ≤ S500.size a
  hwx0_4 : ∀ i : grid0.Coords, EltTy.bits .f32 = 32 ∨ (Rect.block (s := S500) S500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x200.size a ≤ S500x200.size a
  hwx0_5 : ∀ i : grid0.Coords, EltTy.bits .bf16 = 32 ∨ (Rect.block (s := S500x200) S500x200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200.size a ≤ S200.size a
  hwx0_6 : ∀ i : grid0.Coords, EltTy.bits .f32 = 32 ∨ (Rect.block (s := S200) S200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x200.size a ≤ S200x200.size a
  hwx0_7 : ∀ i : grid0.Coords, EltTy.bits .bf16 = 32 ∨ (Rect.block (s := S200x200) S200x200.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200.size a ≤ S200.size a
  hwx0_8 : ∀ i : grid0.Coords, EltTy.bits .f32 = 32 ∨ (Rect.block (s := S200) S200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200x1.size a ≤ S200x1.size a
  hwx0_9 : ∀ i : grid0.Coords, EltTy.bits .bf16 = 32 ∨ (Rect.block (s := S200x1) S200x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S16384x1.size a
  hwx0_11 : ∀ i : grid0.Coords, EltTy.bits .f32 = 32 ∨ (Rect.block (s := S16384x1) S1024x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S16384x1.size a
  hwx0_12 : ∀ i : grid0.Coords, EltTy.bits .f32 = 32 ∨ (Rect.block (s := S16384x1) S1024x1.size (cc0_transform_12 i) (hinb0_12 i)).WholeWords (EltTy.packing .f32)

variable [Facts₀]

def dot_S1024x1024_S1024x500_S1024x500_1_0_0_1_n_n : DotDims S1024x1024 S1024x500 S1024x500 where
  lhsContracting := [1]
  rhsContracting := [0]
  lhsNonContracting := [0]
  rhsNonContracting := [1]
  lhsBatch := []
  rhsBatch := []
  wf := dot_S1024x1024_S1024x500_S1024x500_1_0_0_1_n_n_wf
def dot_S1024x500_S500x200_S1024x200_1_0_0_1_n_n : DotDims S1024x500 S500x200 S1024x200 where
  lhsContracting := [1]
  rhsContracting := [0]
  lhsNonContracting := [0]
  rhsNonContracting := [1]
  lhsBatch := []
  rhsBatch := []
  wf := dot_S1024x500_S500x200_S1024x200_1_0_0_1_n_n_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S1024x200_S200x1_S1024x1_1_0_0_1_n_n : DotDims S1024x200 S200x1 S1024x1 where
  lhsContracting := [1]
  rhsContracting := [0]
  lhsNonContracting := [0]
  rhsNonContracting := [1]
  lhsBatch := []
  rhsBatch := []
  wf := dot_S1024x200_S200x1_S1024x1_1_0_0_1_n_n_wf
def dot_S1024x1024_S1024x7_S1024x7_1_0_0_1_n_n : DotDims S1024x1024 S1024x7 S1024x7 where
  lhsContracting := [1]
  rhsContracting := [0]
  lhsNonContracting := [0]
  rhsNonContracting := [1]
  lhsBatch := []
  rhsBatch := []
  wf := dot_S1024x1024_S1024x7_S1024x7_1_0_0_1_n_n_wf

abbrev win0_0 : Pipeline.Window sig grid0 :=
  Pipeline.Window.ofSpec (Memref.whole main_v79) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S1024x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S500x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S200x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v80_0) S1024x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v80_1) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1000x16 : Shape := ⟨2, ![1000, 16]⟩
abbrev S1024x500 : Shape := ⟨2, ![1024, 500]⟩
abbrev S500 : Shape := ⟨1, ![500]⟩
abbrev S500x200 : Shape := ⟨2, ![500, 200]⟩
abbrev S200 : Shape := ⟨1, ![200]⟩
abbrev S200x200 : Shape := ⟨2, ![200, 200]⟩
abbrev S1224x1 : Shape := ⟨2, ![1224, 1]⟩
abbrev S1 : Shape := ⟨1, ![1]⟩
abbrev S2x3x1024 : Shape := ⟨3, ![2, 3, 1024]⟩
abbrev S16384x500 : Shape := ⟨2, ![16384, 500]⟩
abbrev S1x500 : Shape := ⟨2, ![1, 500]⟩
abbrev S_ : Shape := ⟨0, ![]⟩
abbrev S16384x200 : Shape := ⟨2, ![16384, 200]⟩
abbrev S1x200 : Shape := ⟨2, ![1, 200]⟩
abbrev S16384x1 : Shape := ⟨2, ![16384, 1]⟩
abbrev S1x1x1024 : Shape := ⟨3, ![1, 1, 1024]⟩
abbrev S1024 : Shape := ⟨1, ![1024]⟩
abbrev S1x1024 : Shape := ⟨2, ![1, 1024]⟩
abbrev S16384x1224 : Shape := ⟨2, ![16384, 1224]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S16384x1024, .f32⟩
  | 1 => ⟨S16384, .i32⟩
  | 2 => ⟨S1000x16, .f32⟩
  | 3 => ⟨S1024x500, .f32⟩
  | 4 => ⟨S500, .f32⟩
  | 5 => ⟨S500x200, .f32⟩
  | 6 => ⟨S200, .f32⟩
  | 7 => ⟨S200x200, .f32⟩
  | 8 => ⟨S200, .f32⟩
  | 9 => ⟨S1224x1, .f32⟩
  | 10 => ⟨S1, .f32⟩
  | 11 => ⟨S2x3x1024, .f32⟩
  | 12 => ⟨S2x3x1024, .f32⟩
  | 13 => ⟨S16384x500, .f32⟩
  | 14 => ⟨S1x500, .f32⟩
  | 15 => ⟨S16384x500, .f32⟩
  | 16 => ⟨S16384x500, .f32⟩
  | 17 => ⟨S_, .f32⟩
  | 18 => ⟨S16384x500, .f32⟩
  | 19 => ⟨S16384x500, .f32⟩
  | 20 => ⟨S16384x200, .f32⟩
  | 21 => ⟨S1x200, .f32⟩
  | 22 => ⟨S16384x200, .f32⟩
  | 23 => ⟨S16384x200, .f32⟩
  | 24 => ⟨S_, .f32⟩
  | 25 => ⟨S16384x200, .f32⟩
  | 26 => ⟨S16384x200, .f32⟩
  | 27 => ⟨S16384x200, .f32⟩
  | 28 => ⟨S1x200, .f32⟩
  | 29 => ⟨S16384x200, .f32⟩
  | 30 => ⟨S16384x200, .f32⟩
  | 31 => ⟨S_, .f32⟩
  | 32 => ⟨S16384x200, .f32⟩
  | 33 => ⟨S16384x200, .f32⟩
  | 34 => ⟨S_, .f32⟩
  | 35 => ⟨S16384, .f32⟩
  | 36 => ⟨S16384x1, .f32⟩
  | 37 => ⟨S16384x1024, .f32⟩
  | 38 => ⟨S16384x1024, .f32⟩
  | 39 => ⟨S1x1x1024, .f32⟩
  | 40 => ⟨S1024, .f32⟩
  | 41 => ⟨S1x1024, .f32⟩
  | 42 => ⟨S16384x1024, .f32⟩
  | 43 => ⟨S16384x1024, .f32⟩
  | 44 => ⟨S1x1x1024, .f32⟩
  | 45 => ⟨S1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S16384x1024, .f32⟩
  | 52 => ⟨S1x1x1024, .f32⟩
  | 53 => ⟨S1024, .f32⟩
  | 54 => ⟨S1x1024, .f32⟩
  | 55 => ⟨S16384x1024, .f32⟩
  | 56 => ⟨S16384x1024, .f32⟩
  | 57 => ⟨S1x1x1024, .f32⟩
  | 58 => ⟨S1024, .f32⟩
  | 59 => ⟨S1x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S1x1x1024, .f32⟩
  | 66 => ⟨S1024, .f32⟩
  | 67 => ⟨S1x1024, .f32⟩
  | 68 => ⟨S16384x1024, .f32⟩
  | 69 => ⟨S16384x1024, .f32⟩
  | 70 => ⟨S1x1x1024, .f32⟩
  | 71 => ⟨S1024, .f32⟩
  | 72 => ⟨S1x1024, .f32⟩
  | 73 => ⟨S16384x1024, .f32⟩
  | 74 => ⟨S16384x1024, .f32⟩
  | 75 => ⟨S16384x1024, .f32⟩
  | 76 => ⟨S16384x1224, .f32⟩
  | 77 => ⟨S16384x1, .f32⟩
  | 78 => ⟨S1x1, .f32⟩
  | 79 => ⟨S16384x1, .f32⟩
  | 80 => ⟨S16384x1, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384x1, .f32⟩
  | 88 => ⟨S16384x1, .f32⟩
  | 89 => ⟨S16384x1024, .f32⟩
  | 90 => ⟨S16384x1024, .f32⟩
  | 91 => ⟨S1x1x1024, .f32⟩
  | 92 => ⟨S1024, .f32⟩
  | 93 => ⟨S1x1024, .f32⟩
  | 94 => ⟨S16384x1024, .f32⟩
  | 95 => ⟨S16384x1024, .f32⟩
  | 96 => ⟨S1x1x1024, .f32⟩
  | 97 => ⟨S1024, .f32⟩
  | 98 => ⟨S1x1024, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S1x1x1024, .f32⟩
  | 105 => ⟨S1024, .f32⟩
  | 106 => ⟨S1x1024, .f32⟩
  | 107 => ⟨S16384x1024, .f32⟩
  | 108 => ⟨S16384x1024, .f32⟩
  | 109 => ⟨S1x1x1024, .f32⟩
  | 110 => ⟨S1024, .f32⟩
  | 111 => ⟨S1x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S1x1x1024, .f32⟩
  | 118 => ⟨S1024, .f32⟩
  | 119 => ⟨S1x1024, .f32⟩
  | 120 => ⟨S16384x1024, .f32⟩
  | 121 => ⟨S16384x1024, .f32⟩
  | 122 => ⟨S1x1x1024, .f32⟩
  | 123 => ⟨S1024, .f32⟩
  | 124 => ⟨S1x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1224, .f32⟩
  | 1 => ⟨S16384x1, .f32⟩
  | 2 => ⟨S1x1, .f32⟩
  | 3 => ⟨S16384x1, .f32⟩
  | 4 => ⟨S16384x1, .f32⟩
  | 5 => ⟨S16384x1, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_0 : Ref sig .tc := ⟨.hbm, 83, rfl⟩
abbrev main_v63 : Ref sig .tc := ⟨.hbm, 84, rfl⟩
abbrev main_v64 : Ref sig .tc := ⟨.hbm, 85, rfl⟩
abbrev main_cst_1 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_2 : Ref sig .tc := ⟨.hbm, 135, rfl⟩
abbrev main_v113 : Ref sig .tc := ⟨.hbm, 136, rfl⟩
abbrev main_v114 : Ref sig .tc := ⟨.hbm, 137, rfl⟩
abbrev main_cst_3 : Ref sig .tc := ⟨.hbm, 138, rfl⟩
abbrev main_v115 : Ref sig .tc := ⟨.hbm, 139, rfl⟩
abbrev main_v116 : Ref sig .tc := ⟨.hbm, 140, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S16384x500_0_1 : S1x500.BroadcastsInDim S16384x500 (![0, 1] : Fin 2 → Fin S16384x500.rank)
  bcast_S_S16384x500 : S_.BroadcastsInDim S16384x500 (![] : Fin 0 → Fin S16384x500.rank)
  bcast_S200_S1x200_1 : S200.BroadcastsInDim S1x200 (![1] : Fin 1 → Fin S1x200.rank)
  bcast_S1x200_S16384x200_0_1 : S1x200.BroadcastsInDim S16384x200 (![0, 1] : Fin 2 → Fin S16384x200.rank)
  bcast_S_S16384x200 : S_.BroadcastsInDim S16384x200 (![] : Fin 0 → Fin S16384x200.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  slices_S2x3x1024_S1x1x1024_0_0_0 : S2x3x1024.Slices ![0, 0, 0] S1x1x1024
  shapeCasts_S1x1x1024_S1024 : S1x1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S2x3x1024_S1x1x1024_0_1_0 : S2x3x1024.Slices ![0, 1, 0] S1x1x1024
  slices_S2x3x1024_S1x1x1024_0_2_0 : S2x3x1024.Slices ![0, 2, 0] S1x1x1024
  concatenates_S16384x1024_S16384x200_S16384x1224_d1 : Shape.Concatenates [S16384x1024, S16384x200] S16384x1224 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  slices_S2x3x1024_S1x1x1024_1_0_0 : S2x3x1024.Slices ![1, 0, 0] S1x1x1024
  slices_S2x3x1024_S1x1x1024_1_1_0 : S2x3x1024.Slices ![1, 1, 0] S1x1x1024
  slices_S2x3x1024_S1x1x1024_1_2_0 : S2x3x1024.Slices ![1, 2, 0] S1x1x1024
  dot_S16384x1024_S1024x500_S16384x500_1_0_0_1_n_n_wf : DotDims.WF S16384x1024 S1024x500 S16384x500 [1] [0] [0] [1] [] []
  dot_S16384x500_S500x200_S16384x200_1_0_0_1_n_n_wf : DotDims.WF S16384x500 S500x200 S16384x200 [1] [0] [0] [1] [] []
  dot_S16384x200_S200x200_S16384x200_1_0_0_1_n_n_wf : DotDims.WF S16384x200 S200x200 S16384x200 [1] [0] [0] [1] [] []
  dot_S16384x1224_S1224x1_S16384x1_1_0_0_1_n_n_wf : DotDims.WF S16384x1224 S1224x1 S16384x1 [1] [0] [0] [1] [] []

variable [Facts₀]

def dot_S16384x1024_S1024x500_S16384x500_1_0_0_1_n_n : DotDims S16384x1024 S1024x500 S16384x500 where
  lhsContracting := [1]
  rhsContracting := [0]
  lhsNonContracting := [0]
  rhsNonContracting := [1]
  lhsBatch := []
  rhsBatch := []
  wf := dot_S16384x1024_S1024x500_S16384x500_1_0_0_1_n_n_wf
def dot_S16384x500_S500x200_S16384x200_1_0_0_1_n_n : DotDims S16384x500 S500x200 S16384x200 where
  lhsContracting := [1]
  rhsContracting := [0]
  lhsNonContracting := [0]
  rhsNonContracting := [1]
  lhsBatch := []
  rhsBatch := []
  wf := dot_S16384x500_S500x200_S16384x200_1_0_0_1_n_n_wf
def dot_S16384x200_S200x200_S16384x200_1_0_0_1_n_n : DotDims S16384x200 S200x200 S16384x200 where
  lhsContracting := [1]
  rhsContracting := [0]
  lhsNonContracting := [0]
  rhsNonContracting := [1]
  lhsBatch := []
  rhsBatch := []
  wf := dot_S16384x200_S200x200_S16384x200_1_0_0_1_n_n_wf
def dot_S16384x1224_S1224x1_S16384x1_1_0_0_1_n_n : DotDims S16384x1224 S1224x1 S16384x1 where
  lhsContracting := [1]
  rhsContracting := [0]
  lhsNonContracting := [0]
  rhsNonContracting := [1]
  lhsBatch := []
  rhsBatch := []
  wf := dot_S16384x1224_S1224x1_S16384x1_1_0_0_1_n_n_wf

class Facts : Prop extends Facts₀ where

variable [Facts]
-- ==== Proof.FrameKernel.lean ====
/-
  The frame of the program: every weakly fair execution of @main ends, nothing faults, and the thirteen argument
  arrays end as they began. @main is three stretches of host operations (the casts of the weights, the seven columns
  of the collapsed cross network and their six constants, the cast of the batch) followed by one pipelined region of
  sixteen points. At a point the body reads its eleven input blocks whole, and stores each of its two output blocks
  whole: the logistic of a cubic in the row sum plus the shared deep tower's contribution. Ten of the eleven inputs
  are resident (fetched at the first point, their block index constant), so at every point each input buffer holds
  its block. What each output buffer holds after the body is stated over the body's arithmetic as pure terms of the
  input blocks. Everything is stated at any float instance.
-/
import proofs.«174844_j12816182411985_2_alg».proof.Proof.Gen.Kernel.Launch
import proofs.«174844_j12816182411985_2_alg».proof.Proof.Gen.Kernel.Skeleton
import proofs.«174844_j12816182411985_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Which window stages which argument array, or none. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).1 8).trans (((dats 0 c).arrAt_in 8 rfl _).trans ((hA c 8).trans (V_main_arg8 m c))),
      ((h c).2 main_arg9 (Pipeline.mem_restRefs_of main_arg9 (by decide) (by decide))).trans (V_main_arg9 m c),
      ((h c).1 10).trans (((dats 0 c).arrAt_in 10 rfl _).trans ((hA c 10).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: every block whole -/

abbrev r0_0 : Rect S1024x1024 := Rect.unit (s := S1024x1024) ![0, 0] S1024x1024.size inb_S1024x1024_S1024x1024_0_0
abbrev r0_1 : Rect S1024x7 := Rect.unit (s := S1024x7) ![0, 0] S1024x7.size inb_S1024x7_S1024x7_0_0
abbrev r0_2 : Rect S1x8 := Rect.unit (s := S1x8) ![0, 0] S1x8.size inb_S1x8_S1x8_0_0
abbrev r0_3 : Rect S1024x500 := Rect.unit (s := S1024x500) ![0, 0] S1024x500.size inb_S1024x500_S1024x500_0_0
abbrev r0_4 : Rect S500 := Rect.unit (s := S500) ![0] S500.size inb_S500_S500_0
abbrev r0_5 : Rect S500x200 := Rect.unit (s := S500x200) ![0, 0] S500x200.size inb_S500x200_S500x200_0_0
abbrev r0_6 : Rect S200 := Rect.unit (s := S200) ![0] S200.size inb_S200_S200_0
abbrev r0_7 : Rect S200x200 := Rect.unit (s := S200x200) ![0, 0] S200x200.size inb_S200x200_S200x200_0_0
abbrev r0_8 : Rect S200 := Rect.unit (s := S200) ![0] S200.size inb_S200_S200_0
abbrev r0_9 : Rect S200x1 := Rect.unit (s := S200x1) ![0, 0] S200x1.size inb_S200x1_S200x1_0_0
abbrev r0_10 : Rect S1 := Rect.unit (s := S1) ![0] S1.size inb_S1_S1_0
abbrev r0_11 : Rect S1024x1 := Rect.unit (s := S1024x1) ![0, 0] S1024x1.size inb_S1024x1_S1024x1_0_0
abbrev r0_12 : Rect S1024x1 := Rect.unit (s := S1024x1) ![0, 0] S1024x1.size inb_S1024x1_S1024x1_0_0

/-! ## What the body leaves in each output buffer -/

/-- The first output block after the body: its one whole store, the logistic of the first logit. -/
def out0_11 (x0 : Vec F S1024x1024 .bf16) (x1 : Vec F S1024x7 .bf16) (x2 : Vec F S1x8 .f32) (x3 : Vec F S1024x500 .bf16) (x4 : Vec F S500 .f32) (x5 : Vec F S500x200 .bf16) (x6 : Vec F S200 .f32) (x7 : Vec F S200x200 .bf16) (x8 : Vec F S200 .f32) (x9 : Vec F S200x1 .bf16) (x10 : Vec F S1 .f32) : Vec F S1024x1 .f32 :=
  View.canon [⟨r0_11, k0_pay1 (k0_pay13 (k0_pay3 (View.ld x0 r0_0)) (k0_pay4 (View.ld x0 r0_0)) (k0_pay5 (View.ld x0 r0_0)) (k0_pay6 (View.ld x0 r0_0)) (k0_pay7 (View.ld x0 r0_0) (View.ld x3 r0_3) (View.ld x4 r0_4) (View.ld x5 r0_5) (View.ld x6 r0_6) (View.ld x7 r0_7) (View.ld x8 r0_8)) (k0_pay8 (View.ld x9 r0_9)) (View.ld x10 r0_10) (View.ld x1 r0_1) (View.ld x2 r0_2))⟩]

/-- The second output block after the body: its one whole store, the logistic of the second logit. -/
def out0_12 (x0 : Vec F S1024x1024 .bf16) (x1 : Vec F S1024x7 .bf16) (x2 : Vec F S1x8 .f32) (x3 : Vec F S1024x500 .bf16) (x4 : Vec F S500 .f32) (x5 : Vec F S500x200 .bf16) (x6 : Vec F S200 .f32) (x7 : Vec F S200x200 .bf16) (x8 : Vec F S200 .f32) (x9 : Vec F S200x1 .bf16) (x10 : Vec F S1 .f32) : Vec F S1024x1 .f32 :=
  View.canon [⟨r0_12, k0_pay2 (k0_pay9 (k0_pay7 (View.ld x0 r0_0) (View.ld x3 r0_3) (View.ld x4 r0_4) (View.ld x5 r0_5) (View.ld x6 r0_6) (View.ld x7 r0_7) (View.ld x8 r0_8)) (k0_pay8 (View.ld x9 r0_9)) (View.ld x10 r0_10)) (k0_pay14 (k0_pay3 (View.ld x0 r0_0)) (k0_pay4 (View.ld x0 r0_0)) (k0_pay5 (View.ld x0 r0_0)) (k0_pay6 (View.ld x0 r0_0)) (View.ld x1 r0_1) (View.ld x2 r0_2)) (k0_pay15 (k0_pay3 (View.ld x0 r0_0)) (View.ld x1 r0_1) (View.ld x2 r0_2))⟩]

/-- A whole store covers its buffer. -/
theorem cover0_11 (p0 : Vec F S1024x1 .f32) (y : S1024x1.Idx) :
    ∃ pc ∈ ([⟨r0_11, p0⟩] : List (View.Piece (Elt F) S1024x1 .f32)), y ∈ pc.1.set :=
  View.cover_of_tiled [⟨r0_11, p0⟩] S1024x1.size (by rfl) y
theorem cover0_12 (p0 : Vec F S1024x1 .f32) (y : S1024x1.Idx) :
    ∃ pc ∈ ([⟨r0_12, p0⟩] : List (View.Piece (Elt F) S1024x1 .f32)), y ∈ pc.1.set :=
  View.cover_of_tiled [⟨r0_12, p0⟩] S1024x1.size (by rfl) y

/-! ## The body's triple -/

set_option maxHeartbeats 4000000 in
/-- The body on whole buffers, the inputs' at read contents and the outputs' at anything, runs to the end leaving the
    inputs as they were and each output at its one store. -/
theorem sound_kernel (c : Dev nD) (E : Set ℕ) (i : grid0.Coords) (arg1 : Memref sig .tc .vmem S1024x1024 .bf16) (harg1 : arg1.IsWhole) (arg2 : Memref sig .tc .vmem S1024x7 .bf16) (harg2 : arg2.IsWhole) (arg3 : Memref sig .tc .vmem S1x8 .f32) (harg3 : arg3.IsWhole) (arg4 : Memref sig .tc .vmem S1024x500 .bf16) (harg4 : arg4.IsWhole) (arg5 : Memref sig .tc .vmem S500 .f32) (harg5 : arg5.IsWhole) (arg6 : Memref sig .tc .vmem S500x200 .bf16) (harg6 : arg6.IsWhole) (arg7 : Memref sig .tc .vmem S200 .f32) (harg7 : arg7.IsWhole) (arg8 : Memref sig .tc .vmem S200x200 .bf16) (harg8 : arg8.IsWhole) (arg9 : Memref sig .tc .vmem S200 .f32) (harg9 : arg9.IsWhole) (arg10 : Memref sig .tc .vmem S200x1 .bf16) (harg10 : arg10.IsWhole) (arg11 : Memref sig .tc .vmem S1 .f32) (harg11 : arg11.IsWhole) (arg12 : Memref sig .tc .vmem S1024x1 .f32) (harg12 : arg12.IsWhole) (arg13 : Memref sig .tc .vmem S1024x1 .f32) (harg13 : arg13.IsWhole)
    (x0 : Vec F S1024x1024 .bf16) (x1 : Vec F S1024x7 .bf16) (x2 : Vec F S1x8 .f32) (x3 : Vec F S1024x500 .bf16) (x4 : Vec F S500 .f32) (x5 : Vec F S500x200 .bf16) (x6 : Vec F S200 .f32) (x7 : Vec F S200x200 .bf16) (x8 : Vec F S200 .f32) (x9 : Vec F S200x1 .bf16) (x10 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__dcn_kernel i arg1 harg1 arg2 harg2 arg3 harg3 arg4 harg4 arg5 harg5 arg6 harg6 arg7 harg7 arg8 harg8 arg9 harg9 arg10 harg10 arg11 harg11 arg12 harg12 arg13 harg13) K := by
  simp only [cc0__dcn_kernel_eq_skeleton]; unfold cc0__dcn_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- After the body at point `t` each input buffer holds its block, each output buffer its one store over the input
    blocks; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
/-- At any point the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, with every array of the pipeline at what the proof data says and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.FrameKernelIdeal.lean ====
/-
  The frame of the program: every weakly fair execution of @main ends, nothing faults, and the thirteen argument
  arrays end as they began. @main is three stretches of host operations (the casts of the weights, the seven columns
  of the collapsed cross network and their six constants, the cast of the batch) followed by one pipelined region of
  sixteen points. At a point the body reads its eleven input blocks whole, and stores each of its two output blocks
  whole: the logistic of a cubic in the row sum plus the shared deep tower's contribution. Ten of the eleven inputs
  are resident (fetched at the first point, their block index constant), so at every point each input buffer holds
  its block. What each output buffer holds after the body is stated over the body's arithmetic as pure terms of the
  input blocks. Everything is stated at any float instance.
-/
import proofs.«174844_j12816182411985_2_alg».proof.Proof.Gen.KernelIdeal.Launch
import proofs.«174844_j12816182411985_2_alg».proof.Proof.Gen.KernelIdeal.Skeleton
import proofs.«174844_j12816182411985_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Which window stages which argument array, or none. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).1 8).trans (((dats 0 c).arrAt_in 8 rfl _).trans ((hA c 8).trans (V_main_arg8 m c))),
      ((h c).2 main_arg9 (Pipeline.mem_restRefs_of main_arg9 (by decide) (by decide))).trans (V_main_arg9 m c),
      ((h c).1 10).trans (((dats 0 c).arrAt_in 10 rfl _).trans ((hA c 10).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: every block whole -/

abbrev r0_0 : Rect S1024x1024 := Rect.unit (s := S1024x1024) ![0, 0] S1024x1024.size inb_S1024x1024_S1024x1024_0_0
abbrev r0_1 : Rect S1024x7 := Rect.unit (s := S1024x7) ![0, 0] S1024x7.size inb_S1024x7_S1024x7_0_0
abbrev r0_2 : Rect S1x8 := Rect.unit (s := S1x8) ![0, 0] S1x8.size inb_S1x8_S1x8_0_0
abbrev r0_3 : Rect S1024x500 := Rect.unit (s := S1024x500) ![0, 0] S1024x500.size inb_S1024x500_S1024x500_0_0
abbrev r0_4 : Rect S500 := Rect.unit (s := S500) ![0] S500.size inb_S500_S500_0
abbrev r0_5 : Rect S500x200 := Rect.unit (s := S500x200) ![0, 0] S500x200.size inb_S500x200_S500x200_0_0
abbrev r0_6 : Rect S200 := Rect.unit (s := S200) ![0] S200.size inb_S200_S200_0
abbrev r0_7 : Rect S200x200 := Rect.unit (s := S200x200) ![0, 0] S200x200.size inb_S200x200_S200x200_0_0
abbrev r0_8 : Rect S200 := Rect.unit (s := S200) ![0] S200.size inb_S200_S200_0
abbrev r0_9 : Rect S200x1 := Rect.unit (s := S200x1) ![0, 0] S200x1.size inb_S200x1_S200x1_0_0
abbrev r0_10 : Rect S1 := Rect.unit (s := S1) ![0] S1.size inb_S1_S1_0
abbrev r0_11 : Rect S1024x1 := Rect.unit (s := S1024x1) ![0, 0] S1024x1.size inb_S1024x1_S1024x1_0_0
abbrev r0_12 : Rect S1024x1 := Rect.unit (s := S1024x1) ![0, 0] S1024x1.size inb_S1024x1_S1024x1_0_0

/-! ## What the body leaves in each output buffer -/

/-- The first output block after the body: its one whole store, the logistic of the first logit. -/
def out0_11 (x0 : Vec F S1024x1024 .bf16) (x1 : Vec F S1024x7 .bf16) (x2 : Vec F S1x8 .f32) (x3 : Vec F S1024x500 .bf16) (x4 : Vec F S500 .f32) (x5 : Vec F S500x200 .bf16) (x6 : Vec F S200 .f32) (x7 : Vec F S200x200 .bf16) (x8 : Vec F S200 .f32) (x9 : Vec F S200x1 .bf16) (x10 : Vec F S1 .f32) : Vec F S1024x1 .f32 :=
  View.canon [⟨r0_11, k0_pay1 (k0_pay13 (k0_pay3 (View.ld x0 r0_0)) (k0_pay4 (View.ld x0 r0_0)) (k0_pay5 (View.ld x0 r0_0)) (k0_pay6 (View.ld x0 r0_0)) (k0_pay7 (View.ld x0 r0_0) (View.ld x3 r0_3) (View.ld x4 r0_4) (View.ld x5 r0_5) (View.ld x6 r0_6) (View.ld x7 r0_7) (View.ld x8 r0_8)) (k0_pay8 (View.ld x9 r0_9)) (View.ld x10 r0_10) (View.ld x1 r0_1) (View.ld x2 r0_2))⟩]

/-- The second output block after the body: its one whole store, the logistic of the second logit. -/
def out0_12 (x0 : Vec F S1024x1024 .bf16) (x1 : Vec F S1024x7 .bf16) (x2 : Vec F S1x8 .f32) (x3 : Vec F S1024x500 .bf16) (x4 : Vec F S500 .f32) (x5 : Vec F S500x200 .bf16) (x6 : Vec F S200 .f32) (x7 : Vec F S200x200 .bf16) (x8 : Vec F S200 .f32) (x9 : Vec F S200x1 .bf16) (x10 : Vec F S1 .f32) : Vec F S1024x1 .f32 :=
  View.canon [⟨r0_12, k0_pay2 (k0_pay9 (k0_pay7 (View.ld x0 r0_0) (View.ld x3 r0_3) (View.ld x4 r0_4) (View.ld x5 r0_5) (View.ld x6 r0_6) (View.ld x7 r0_7) (View.ld x8 r0_8)) (k0_pay8 (View.ld x9 r0_9)) (View.ld x10 r0_10)) (k0_pay14 (k0_pay3 (View.ld x0 r0_0)) (k0_pay4 (View.ld x0 r0_0)) (k0_pay5 (View.ld x0 r0_0)) (k0_pay6 (View.ld x0 r0_0)) (View.ld x1 r0_1) (View.ld x2 r0_2)) (k0_pay15 (k0_pay3 (View.ld x0 r0_0)) (View.ld x1 r0_1) (View.ld x2 r0_2))⟩]

/-- A whole store covers its buffer. -/
theorem cover0_11 (p0 : Vec F S1024x1 .f32) (y : S1024x1.Idx) :
    ∃ pc ∈ ([⟨r0_11, p0⟩] : List (View.Piece (Elt F) S1024x1 .f32)), y ∈ pc.1.set :=
  View.cover_of_tiled [⟨r0_11, p0⟩] S1024x1.size (by rfl) y
theorem cover0_12 (p0 : Vec F S1024x1 .f32) (y : S1024x1.Idx) :
    ∃ pc ∈ ([⟨r0_12, p0⟩] : List (View.Piece (Elt F) S1024x1 .f32)), y ∈ pc.1.set :=
  View.cover_of_tiled [⟨r0_12, p0⟩] S1024x1.size (by rfl) y

/-! ## The body's triple -/

set_option maxHeartbeats 4000000 in
/-- The body on whole buffers, the inputs' at read contents and the outputs' at anything, runs to the end leaving the
    inputs as they were and each output at its one store. -/
theorem sound_kernel (c : Dev nD) (E : Set ℕ) (i : grid0.Coords) (arg1 : Memref sig .tc .vmem S1024x1024 .bf16) (harg1 : arg1.IsWhole) (arg2 : Memref sig .tc .vmem S1024x7 .bf16) (harg2 : arg2.IsWhole) (arg3 : Memref sig .tc .vmem S1x8 .f32) (harg3 : arg3.IsWhole) (arg4 : Memref sig .tc .vmem S1024x500 .bf16) (harg4 : arg4.IsWhole) (arg5 : Memref sig .tc .vmem S500 .f32) (harg5 : arg5.IsWhole) (arg6 : Memref sig .tc .vmem S500x200 .bf16) (harg6 : arg6.IsWhole) (arg7 : Memref sig .tc .vmem S200 .f32) (harg7 : arg7.IsWhole) (arg8 : Memref sig .tc .vmem S200x200 .bf16) (harg8 : arg8.IsWhole) (arg9 : Memref sig .tc .vmem S200 .f32) (harg9 : arg9.IsWhole) (arg10 : Memref sig .tc .vmem S200x1 .bf16) (harg10 : arg10.IsWhole) (arg11 : Memref sig .tc .vmem S1 .f32) (harg11 : arg11.IsWhole) (arg12 : Memref sig .tc .vmem S1024x1 .f32) (harg12 : arg12.IsWhole) (arg13 : Memref sig .tc .vmem S1024x1 .f32) (harg13 : arg13.IsWhole)
    (x0 : Vec F S1024x1024 .bf16) (x1 : Vec F S1024x7 .bf16) (x2 : Vec F S1x8 .f32) (x3 : Vec F S1024x500 .bf16) (x4 : Vec F S500 .f32) (x5 : Vec F S500x200 .bf16) (x6 : Vec F S200 .f32) (x7 : Vec F S200x200 .bf16) (x8 : Vec F S200 .f32) (x9 : Vec F S200x1 .bf16) (x10 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__dcn_kernel i arg1 harg1 arg2 harg2 arg3 harg3 arg4 harg4 arg5 harg5 arg6 harg6 arg7 harg7 arg8 harg8 arg9 harg9 arg10 harg10 arg11 harg11 arg12 harg12 arg13 harg13) K := by
  simp only [cc0__dcn_kernel_eq_skeleton]; unfold cc0__dcn_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- After the body at point `t` each input buffer holds its block, each output buffer its one store over the input
    blocks; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
/-- At any point the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, with every array of the pipeline at what the proof data says and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibDense.lean ====
/-
  A dense layer on the extended reals, index by index, in its two spellings.

  For a matrix `a` of R rows and K columns, weights `w` (K by P) and a bias row `b` (1 by P), entry (r, c) of the
  layer is  Σ_k a(r, k) · w(k, c)  +  b(0, c).  A kernel computes it on the matrix unit into a splat of zeros and adds the
  bias row broadcast over the rows; a host program computes it as a `dot_general` and adds the bias row broadcast in
  dimensions (0, 1). Both, read at an index, are that sum: no rounding, no order of accumulation, and the zero
  accumulator adds nothing.

  Every entry of the result depends on ONE row of `a`: a block of consecutive rows of the result is the same function of
  the matching block of rows of `a` (`dense_rows`). The rectifier (maximum with the zero word) and the entrywise sum
  are pointwise, so they commute with taking row blocks trivially.

  Also here: four matrices of 64 columns joined along the columns, read at an index — column k of the result is column
  k mod 64 of piece k / 64 —, and two spellings of a vector as a one-row matrix.
-/
import Idealize.ShloMosaic.Lib.ValueIdx
import Idealize.ShloMosaic.Lib.ValueLayout
import Idealize.ShloMosaic.Lib.Pipeline.Value
import Idealize.ShloMosaic.PureOps.Ideal.Laws
import proofs.«174844_j12816182411985_2_alg».proof.Proof.LibPlainProduct

noncomputable section

namespace DenseSpec

open Idealize.ShloMosaic Idealize.ShloMosaic.ValueIdx

/-- An a-by-b matrix of extended reals. -/
abbrev Mat (a b : Nat) := (⟨2, ![a, b]⟩ : Shape).Idx → EReal

variable {R K P : Nat}

/-- Entry (r, c) of `a · w + b`, the bias a one-row matrix. -/
def dense (a : Mat R K) (w : Mat K P) (b : Mat 1 P) : Mat R P := fun i =>
  (∑ k : Fin K, a (ix2 (i 0) k) * w (ix2 k (i 1))) + b (ix2 (0 : Fin 1) (i 1))

theorem dense_apply (a : Mat R K) (w : Mat K P) (b : Mat 1 P) (r : Fin R) (c : Fin P) :
    dense a w b (ix2 r c) = (∑ k : Fin K, a (ix2 r k) * w (ix2 k c)) + b (ix2 (0 : Fin 1) c) := rfl

/-- The rectifier: the maximum with the value of the f32 zero word. -/
def relu (z : Mat R P) : Mat R P := fun i => max (z i) (Ideal.ofBits .f32 0x00000000#32)

/-- The entrywise sum. -/
def add (x y : Mat R P) : Mat R P := fun i => x i + y i

variable {R' : Nat}

/-- A row of `a · w + b` is a function of the same row of `a`. -/
theorem dense_rows (a : Mat R K) (a' : Mat R' K) (w : Mat K P) (b : Mat 1 P) (r : Fin R) (r' : Fin R')
    (h : ∀ k : Fin K, a' (ix2 r' k) = a (ix2 r k)) (c : Fin P) : dense a' w b (ix2 r' c) = dense a w b (ix2 r c) := by
  rw [dense_apply, dense_apply]
  exact congrArg (· + b (ix2 (0 : Fin 1) c)) (Finset.sum_congr rfl fun k _ => by rw [h k])

/-! ## The kernel's spelling and the host's -/

variable (wf : DotDims.WF (⟨2, ![R, K]⟩ : Shape) ⟨2, ![K, P]⟩ ⟨2, ![R, P]⟩ [1] [0] [0] [1] [] [])

/-- The matrix unit's product into a splat of zeros, plus the bias row broadcast over the rows, is the dense layer. -/
theorem matmul_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).Broadcasts ⟨2, ![R, P]⟩) :
    addf (matmul (PlainProduct.plainDims R K P wf) prec a w (constant ⟨2, ![R, P]⟩ .f32 0x00000000#32)) (broadcastTo ⟨2, ![R, P]⟩ b hb)
      = dense a w b := by
  funext i
  obtain ⟨r, c, rfl⟩ : ∃ (r : Fin R) (c : Fin P), i = ix2 r c := ⟨i 0, i 1, eq_ix2 i⟩
  rw [addf_apply, PlainProduct.matmul_zero_apply wf prec a w r c, broadcastTo_1b_ab_apply b hb r c, dense_apply]

/-- The host's `dot_general`, plus the bias row broadcast in dimensions (0, 1), is the dense layer. -/
theorem dotGeneral_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).BroadcastsInDim ⟨2, ![R, P]⟩ ![0, 1]) :
    addf (Host.dotGeneral (PlainProduct.plainDims R K P wf) prec a w) (broadcastInDim ⟨2, ![R, P]⟩ ![0, 1] hb b)
      = dense a w b := by
  funext i
  obtain ⟨r, c, rfl⟩ : ∃ (r : Fin R) (c : Fin P), i = ix2 r c := ⟨i 0, i 1, eq_ix2 i⟩
  rw [addf_apply, PlainProduct.dotGeneral_apply wf prec a w r c, dense_apply]
  refine congrArg (_ + ·) ?_
  refine broadcastInDim_apply _ hb b (ix2 r c) (ix2 (0 : Fin 1) c) fun ax => ?_
  match ax with
  | ⟨0, _⟩ => rfl
  | ⟨1, _⟩ =>
    show c.val = if P = 1 then 0 else c.val
    split
    · have := c.isLt; omega
    · rfl

/-! ## A vector as a one-row matrix, two ways -/

/-- A vector of P entries cast to a 1-by-P matrix reads, at (0, c), the vector at c. -/
theorem shapeCast_row_apply (x : (⟨1, ![P]⟩ : Shape).Idx → EReal) (h : (⟨1, ![P]⟩ : Shape).ShapeCasts ⟨2, ![1, P]⟩) (u : Fin 1) (c : Fin P) :
    shapeCast ⟨2, ![1, P]⟩ x h (ix2 u c) = x (ix1 c) :=
  shapeCast_apply x h _ _ (by
    have hu : u.val = 0 := by omega
    rw [Shape.rowMajor_val_two, Shape.rowMajor_val_one]
    show c.val = u.val * P + c.val
    rw [hu, Nat.zero_mul, Nat.zero_add])

/-- The same vector broadcast in dimension 1 to a 1-by-P matrix is the cast. -/
theorem broadcastInDim_row_eq_shapeCast (x : (⟨1, ![P]⟩ : Shape).Idx → EReal) (h : (⟨1, ![P]⟩ : Shape).ShapeCasts ⟨2, ![1, P]⟩)
    (hb : (⟨1, ![P]⟩ : Shape).BroadcastsInDim ⟨2, ![1, P]⟩ ![1]) :
    broadcastInDim ⟨2, ![1, P]⟩ ![1] hb x = shapeCast ⟨2, ![1, P]⟩ x h := by
  funext i
  obtain ⟨u, c, rfl⟩ : ∃ (u : Fin 1) (c : Fin P), i = ix2 u c := ⟨i 0, i 1, eq_ix2 i⟩
  rw [shapeCast_row_apply x h u c]
  refine broadcastInDim_apply _ hb x (ix2 u c) (ix1 c) fun ax => ?_
  match ax with
  | ⟨0, _⟩ =>
    show c.val = if P = 1 then 0 else c.val
    split
    · have := c.isLt; omega
    · rfl

end DenseSpec

end
-- ==== Proof.Spec.lean ====
/-
  The two heads of a deep-and-cross network, row by row, on the extended reals: what the reference computes and what the
  kernel computes, each as one function of the argument arrays.

  For a row x of 1024 features with sum s, a cross layer maps an embedding e to  s · e · c + b + x  (c, b rows of 1024
  weights and biases); three layers starting from e = x give emb3. The head of a task is the logistic of
  Σ_k emb3(k) · w(k) + D + bl, where w is the first 1024 entries of the head's weight column, D the dot product of the
  shared deep tower's row with the remaining 200 entries, and bl the head's bias. The reference computes exactly that.

  The kernel collapses the three layers: emb3 is a cubic in s whose coefficients are x times products of the weights, plus
  products of weights and biases, so Σ_k emb3(k) · w(k) is
    s³ · Σ x·(w·c0·c1·c2) + s² · (Σ x·(w·c1·c2) + Σ w·c1·c2·b0) + s · (Σ x·(w·c2) + Σ w·c2·b1) + (Σ x·w + Σ w·b2).
  The two agree when every entry is a real number (distributivity is used), which is what `logit_eq` states.
-/
import Idealize.ShloMosaic.Lib.ValueIdx
import Idealize.ShloMosaic.PureOps.Ideal.Laws
import proofs.«174844_j12816182411985_2_alg».proof.Proof.LibDense

noncomputable section

namespace DcnSpec

open Idealize.ShloMosaic Idealize.ShloMosaic.ValueIdx DenseSpec

/-- A vector of n extended reals. -/
abbrev V1 (n : Nat) := (⟨1, ![n]⟩ : Shape).Idx → EReal
/-- The cross weights (or biases): task, layer, feature. -/
abbrev Cube := (⟨3, ![2, 3, 1024]⟩ : Shape).Idx → EReal

/-- A bias vector as a one-row matrix. -/
def row {P : Nat} (b : V1 P) : Mat 1 P := fun i => b (ix1 (i 1))

/-- The shared deep tower: three dense layers, each followed by the rectifier. -/
def tower {B : Nat} (x : Mat B 1024) (W1 : Mat 1024 500) (b1 : V1 500) (W2 : Mat 500 200) (b2 : V1 200)
    (W3 : Mat 200 200) (b3 : V1 200) : Mat B 200 :=
  relu (dense (relu (dense (relu (dense x W1 (row b1))) W2 (row b2))) W3 (row b3))

/-- Three cross layers from e = x, at feature k:  e ↦ (s · e) · c + b + x. -/
def emb3 (s : EReal) (x c0 c1 c2 b0 b1 b2 : Fin 1024 → EReal) (k : Fin 1024) : EReal :=
  (s * ((s * ((s * x k) * c0 k + b0 k + x k)) * c1 k + b1 k + x k)) * c2 k + b2 k + x k

/-- The reference's logit of one row: the row sum is taken from zero. -/
def logitR (x w c0 c1 c2 b0 b1 b2 : Fin 1024 → EReal) (D bl : EReal) : EReal :=
  ((∑ k, emb3 (0 + ∑ k, x k) x c0 c1 c2 b0 b1 b2 k * w k) + D) + bl

/-- The kernel's logit of one row: the cubic in the row sum. -/
def logitK (x w c0 c1 c2 b0 b1 b2 : Fin 1024 → EReal) (D bl : EReal) : EReal :=
  (((((∑ k, x k) * (∑ k, x k)) * (∑ k, x k)) * (∑ k, x k * (((w k * c0 k) * c1 k) * c2 k))
      + ((∑ k, x k) * (∑ k, x k)) * ((∑ k, x k * ((w k * c1 k) * c2 k)) + (0 + ∑ k, ((w k * c1 k) * c2 k) * b0 k)))
      + (∑ k, x k) * ((∑ k, x k * (w k * c2 k)) + (0 + ∑ k, (w k * c2 k) * b1 k))
      + ((∑ k, x k * w k) + (0 + ∑ k, w k * b2 k)))
    + (D + bl)

/-- The value of the f32 word of one. -/
abbrev one : EReal := Ideal.ofBits .f32 0x3F800000#32

/-- The head weight's first 1024 entries, and its last 200. -/
def wcol (Wl : Mat 1224 1) (k : Fin 1024) : EReal := Wl (ix2 (⟨k.val, by omega⟩ : Fin 1224) (0 : Fin 1))
def wdeep (Wl : Mat 1224 1) (h : Fin 200) : EReal := Wl (ix2 (⟨1024 + h.val, by omega⟩ : Fin 1224) (0 : Fin 1))
/-- Row (task i, layer j) of the cross weights or biases. -/
def crow (cw : Cube) (i : Fin 2) (j : Fin 3) (k : Fin 1024) : EReal := cw (ix3 i j k)

/-- The deep tower's contribution to the logit of row b. -/
def deep {B : Nat} (x : Mat B 1024) (W1 : Mat 1024 500) (b1 : V1 500) (W2 : Mat 500 200) (b2 : V1 200)
    (W3 : Mat 200 200) (b3 : V1 200) (Wl : Mat 1224 1) (b : Fin B) : EReal :=
  ∑ h : Fin 200, tower x W1 b1 W2 b2 W3 b3 (ix2 b h) * wdeep Wl h

/-- The reference's head of task i: 1 / (1 + exp (− logit)). -/
def outR (i : Fin 2) (x : Mat 16384 1024) (W1 : Mat 1024 500) (b1 : V1 500) (W2 : Mat 500 200) (b2 : V1 200)
    (W3 : Mat 200 200) (b3 : V1 200) (Wl : Mat 1224 1) (bl : V1 1) (cw cb : Cube) : Mat 16384 1 := fun idx =>
  Ideal.div one (one + Ideal.exp (-(logitR (fun k => x (ix2 (idx 0) k)) (wcol Wl) (crow cw i 0) (crow cw i 1) (crow cw i 2)
    (crow cb i 0) (crow cb i 1) (crow cb i 2) (deep x W1 b1 W2 b2 W3 b3 Wl (idx 0)) (bl (ix1 (0 : Fin 1))))))

/-- The kernel's head of task i: the logistic of the collapsed logit. -/
def outK (i : Fin 2) (x : Mat 16384 1024) (W1 : Mat 1024 500) (b1 : V1 500) (W2 : Mat 500 200) (b2 : V1 200)
    (W3 : Mat 200 200) (b3 : V1 200) (Wl : Mat 1224 1) (bl : V1 1) (cw cb : Cube) : Mat 16384 1 := fun idx =>
  Ideal.logistic (logitK (fun k => x (ix2 (idx 0) k)) (wcol Wl) (crow cw i 0) (crow cw i 1) (crow cw i 2)
    (crow cb i 0) (crow cb i 1) (crow cb i 2) (deep x W1 b1 W2 b2 W3 b3 Wl (idx 0)) (bl (ix1 (0 : Fin 1))))

end DcnSpec

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.KernelBody.lean ====
/-
  The body's arithmetic read at a row, at the ideal values.

  At a grid point the body holds a block of 1024 rows of the batch (x0), the seven columns of the collapsed cross network (x1),
  the row of its six constants (x2), the deep tower's three weight matrices and bias vectors (x3 … x8), the head's weights on
  the tower's output (x9) and the head's bias (x10). For a row r it forms the row sum S, the seven products
  P_j = Σ_k x0(r,k) · x1(k,j), the tower's row (three dense layers, each a product into zeros plus the bias broadcast,
  followed by the maximum with zero; the changes of float format are the identity here), the tower's contribution
  Σ_h tower(r,h) · x9(h,0) + x10(0), and stores the logistic of
    ((S·S)·S)·P3 + (S·S)·(P2 + a2) + S·(P1 + a1) + (P0 + a0) + (tower's contribution)
  for the first head, and the same with (P6, P5, a5, P4, a4, P0, a3) for the second.
-/
import proofs.«174844_j12816182411985_2_alg».proof.Proof.Gen.KernelIdeal.Skeleton
import proofs.«174844_j12816182411985_2_alg».proof.Proof.Spec
import proofs.«174844_j12816182411985_2_alg».proof.Proof.LibDense
import proofs.«174844_j12816182411985_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen
open Idealize.ShloMosaic Idealize.ShloMosaic.ValueIdx DenseSpec DcnSpec

theorem rowsum_apply (v0 : Vec Ideal S1024x1024 .bf16) (r : Fin 1024) (u : Fin 1) :
    k0_pay4 v0 (ix2 r u) = ∑ k : Fin 1024, v0 (ix2 r k) := by
  unfold k0_pay4 k0_pay3
  refine (LibColumns.shapeCast_a_a1_apply _ _ r u).trans ?_
  refine (Ideal.multiReduction_add_single _ 0x00000000#32 reduces_S1024x1024_S1024 (.inl rfl) rfl (ix1 r)).trans ?_
  refine Finset.sum_congr rfl fun k _ => ?_
  rw [extf_apply, shapeCast_self]
  exact congrArg v0 (funext fun a => Fin.ext (by match a with | ⟨0, _⟩ => rfl | ⟨1, _⟩ => rfl))

theorem dotA : dot_S1024x1024_S1024x500_S1024x500_1_0_0_1_n_n = PlainProduct.plainDims 1024 1024 500 dot_S1024x1024_S1024x500_S1024x500_1_0_0_1_n_n_wf := rfl
theorem dotB : dot_S1024x500_S500x200_S1024x200_1_0_0_1_n_n = PlainProduct.plainDims 1024 500 200 dot_S1024x500_S500x200_S1024x200_1_0_0_1_n_n_wf := rfl
theorem dotC : dot_S1024x200_S200x200_S1024x200_1_0_0_1_n_n = PlainProduct.plainDims 1024 200 200 dot_S1024x200_S200x200_S1024x200_1_0_0_1_n_n_wf := rfl
theorem dotD : dot_S1024x200_S200x1_S1024x1_1_0_0_1_n_n = PlainProduct.plainDims 1024 200 1 dot_S1024x200_S200x1_S1024x1_1_0_0_1_n_n_wf := rfl
theorem dotE : dot_S1024x1024_S1024x7_S1024x7_1_0_0_1_n_n = PlainProduct.plainDims 1024 1024 7 dot_S1024x1024_S1024x7_S1024x7_1_0_0_1_n_n_wf := rfl

/-- One dense layer as the body spells it: the product into zeros plus the bias vector cast to a row and broadcast. -/
theorem layer_eq {R K P : Nat} (d : DotDims ⟨2, ![R, K]⟩ ⟨2, ![K, P]⟩ ⟨2, ![R, P]⟩)
    (wf : DotDims.WF (⟨2, ![R, K]⟩ : Shape) ⟨2, ![K, P]⟩ ⟨2, ![R, P]⟩ [1] [0] [0] [1] [] []) (hd : d = PlainProduct.plainDims R K P wf)
    {φ₁ φ₂ : FTy} (a : FVec Ideal ⟨2, ![R, K]⟩ φ₁) (w : FVec Ideal ⟨2, ![K, P]⟩ φ₂) (b : FVec Ideal ⟨1, ![P]⟩ .f32)
    (hs : (⟨1, ![P]⟩ : Shape).ShapeCasts ⟨2, ![1, P]⟩) (hb : (⟨2, ![1, P]⟩ : Shape).Broadcasts ⟨2, ![R, P]⟩) :
    addf (matmul d none a w (constant ⟨2, ![R, P]⟩ .f32 0x00000000#32)) (broadcastTo ⟨2, ![R, P]⟩ (shapeCast ⟨2, ![1, P]⟩ b hs) hb)
      = dense a w (row b) := by
  subst hd
  rw [DenseSpec.matmul_bias wf none a w _ hb]
  congr 1
  funext i
  obtain ⟨u, c, rfl⟩ : ∃ (u : Fin 1) (c : Fin P), i = ix2 u c := ⟨i 0, i 1, eq_ix2 i⟩
  exact DenseSpec.shapeCast_row_apply b hs u c

theorem tower_eq (v0 : Vec Ideal S1024x1024 .bf16) (v7 : Vec Ideal S1024x500 .bf16) (v10 : Vec Ideal S500 .f32)
    (v17 : Vec Ideal S500x200 .bf16) (v20 : Vec Ideal S200 .f32) (v27 : Vec Ideal S200x200 .bf16) (v30 : Vec Ideal S200 .f32) :
    k0_pay7 v0 v7 v10 v17 v20 v27 v30 = tower v0 v7 v10 v17 v20 v27 v30 := by
  unfold k0_pay7 k0_pay3 tower
  dsimp only
  simp only [shapeCast_self]
  rw [layer_eq _ _ dotA v0 v7 v10, layer_eq _ _ dotB _ v17 v20, layer_eq _ _ dotC _ v27 v30]
  rfl

/-- The deep tower's contribution plus the head's bias, at a row. -/
theorem shared_apply (v36 : FVec Ideal S1024x200 .bf16) (v38 : FVec Ideal S200x1 .bf16) (v40 : Vec Ideal S1 .f32) (r : Fin 1024) (u : Fin 1) :
    k0_pay9 v36 v38 v40 (ix2 r u) = (∑ h : Fin 200, v36 (ix2 r h) * v38 (ix2 h u)) + v40 (ix1 u) := by
  unfold k0_pay9
  rw [layer_eq _ _ dotD v36 v38 v40]
  rfl

/-- The collapsed cross network's seven products, at (row, column). -/
theorem cols_apply (v1 : FVec Ideal S1024x1024 .bf16) (v44 : Vec Ideal S1024x7 .bf16) (r : Fin 1024) (j : Fin 7) :
    k0_pay10 v1 v44 (ix2 r j) = ∑ k : Fin 1024, v1 (ix2 r k) * v44 (ix2 k j) := by
  unfold k0_pay10
  rw [shapeCast_self, dotE]
  exact PlainProduct.matmul_zero_apply _ none v1 v44 r j

/-- Column j of the seven products, as the body slices it out, at a row. -/
theorem col_slice (M : FVec Ideal S1024x7 .f32) (j : Nat) (hj : j < 7) (h : S1024x7.Slices ![0, j] S1024x1) (r : Fin 1024) :
    extractStridedSlice S1024x1 ![0, j] M h (ix2 r (0 : Fin 1)) = M (ix2 r (⟨j, hj⟩ : Fin 7)) :=
  extractStridedSlice_apply _ M h _ (ix2 r (⟨j, hj⟩ : Fin 7)) (fun ax => by
    match ax with
    | ⟨0, _⟩ => exact (Nat.zero_add _).symm
    | ⟨1, _⟩ => rfl)

/-- Entry j of the row of constants, as the body extracts it. -/
theorem scal_slice (a : FVec Ideal S1x8 .f32) (j : Nat) (hj : j < 8) (h : S1x8.Slices ![0, j] S1x1)
    (hp : ∀ a, (![0, 0] : Fin 2 → Nat) a < S1x1.size a) :
    extractAt ![0, 0] (extractStridedSlice S1x1 ![0, j] a h) hp = a (ix2 (0 : Fin 1) (⟨j, hj⟩ : Fin 8)) := by
  unfold extractAt
  exact extractStridedSlice_apply _ a h _ (ix2 (0 : Fin 1) (⟨j, hj⟩ : Fin 8)) (fun ax => by
    match ax with
    | ⟨0, _⟩ => rfl
    | ⟨1, _⟩ => rfl)

/-- The first head's logit as the body computes it, at a row: the cubic in the row sum over the seven products and the
    constants, plus the deep tower's contribution. -/
theorem logit0_apply (v1 : FVec Ideal S1024x1024 .bf16) (v4 v5 v6 : FVec Ideal S1024x1 .f32) (v36 : FVec Ideal S1024x200 .bf16)
    (v38 : FVec Ideal S200x1 .bf16) (v40 : Vec Ideal S1 .f32) (v44 : Vec Ideal S1024x7 .bf16) (v54 : Vec Ideal S1x8 .f32) (r : Fin 1024) :
    k0_pay13 v1 v4 v5 v6 v36 v38 v40 v44 v54 (ix2 r (0 : Fin 1))
      = ((((v6 (ix2 r (0 : Fin 1)) * k0_pay10 v1 v44 (ix2 r (⟨3, by decide⟩ : Fin 7)))
          + v5 (ix2 r (0 : Fin 1)) * (k0_pay10 v1 v44 (ix2 r (⟨2, by decide⟩ : Fin 7)) + v54 (ix2 (0 : Fin 1) (⟨2, by decide⟩ : Fin 8))))
          + v4 (ix2 r (0 : Fin 1)) * (k0_pay10 v1 v44 (ix2 r (⟨1, by decide⟩ : Fin 7)) + v54 (ix2 (0 : Fin 1) (⟨1, by decide⟩ : Fin 8))))
          + (k0_pay10 v1 v44 (ix2 r (⟨0, by decide⟩ : Fin 7)) + v54 (ix2 (0 : Fin 1) (⟨0, by decide⟩ : Fin 8))))
        + k0_pay9 v36 v38 v40 (ix2 r (0 : Fin 1)) := by
  unfold k0_pay13 k0_pay11 k0_pay12
  simp only [addf_apply, mulf_apply, broadcast_apply, shapeCast_self]
  rw [col_slice _ 0 (by decide), col_slice _ 1 (by decide), col_slice _ 2 (by decide), col_slice _ 3 (by decide),
    scal_slice _ 0 (by decide), scal_slice _ 1 (by decide), scal_slice _ 2 (by decide)]

/-- The second head's logit as the body computes it, at a row: the same cubic over the last three products and
    constants; the constant term shares the first product. -/
theorem logit1_apply (v1 : FVec Ideal S1024x1024 .bf16) (v4 v5 v6 : FVec Ideal S1024x1 .f32) (v36 : FVec Ideal S1024x200 .bf16)
    (v38 : FVec Ideal S200x1 .bf16) (v40 : Vec Ideal S1 .f32) (v44 : Vec Ideal S1024x7 .bf16) (v54 : Vec Ideal S1x8 .f32) (r : Fin 1024) :
    addf (addf (k0_pay14 v1 v4 v5 v6 v44 v54) (k0_pay15 v1 v44 v54)) (k0_pay9 v36 v38 v40) (ix2 r (0 : Fin 1))
      = ((((v6 (ix2 r (0 : Fin 1)) * k0_pay10 v1 v44 (ix2 r (⟨6, by decide⟩ : Fin 7)))
          + v5 (ix2 r (0 : Fin 1)) * (k0_pay10 v1 v44 (ix2 r (⟨5, by decide⟩ : Fin 7)) + v54 (ix2 (0 : Fin 1) (⟨5, by decide⟩ : Fin 8))))
          + v4 (ix2 r (0 : Fin 1)) * (k0_pay10 v1 v44 (ix2 r (⟨4, by decide⟩ : Fin 7)) + v54 (ix2 (0 : Fin 1) (⟨4, by decide⟩ : Fin 8))))
          + (k0_pay10 v1 v44 (ix2 r (⟨0, by decide⟩ : Fin 7)) + v54 (ix2 (0 : Fin 1) (⟨3, by decide⟩ : Fin 8))))
        + k0_pay9 v36 v38 v40 (ix2 r (0 : Fin 1)) := by
  unfold k0_pay14 k0_pay15 k0_pay11 k0_pay12
  simp only [addf_apply, mulf_apply, broadcast_apply, shapeCast_self]
  rw [col_slice _ 0 (by decide), col_slice _ 4 (by decide), col_slice _ 5 (by decide), col_slice _ 6 (by decide),
    scal_slice _ 3 (by decide), scal_slice _ 4 (by decide), scal_slice _ 5 (by decide)]

/-- The stored value of the first head: the logistic of its logit. -/
theorem head0_apply (v80 : FVec Ideal S1024x1 .f32) (i : S1024x1.Idx) : k0_pay1 v80 i = Ideal.logistic (v80 i) := rfl

/-- The stored value of the second head. -/
theorem head1_apply (v43 v89 v91 : FVec Ideal S1024x1 .f32) (i : S1024x1.Idx) :
    k0_pay2 v43 v89 v91 i = Ideal.logistic (addf (addf v89 v91) v43 i) := rfl

/-- The cubic in the row sum S with coefficients P3, P2 + a2, P1 + a1, P0 + a0, plus the deep part. -/
def cubic (S P3 P2 a2 P1 a1 P0 a0 Dbl : EReal) : EReal :=
  (((((S * S) * S) * P3 + (S * S) * (P2 + a2)) + S * (P1 + a1)) + (P0 + a0)) + Dbl

/-- The first stored value at a row, over the eleven input blocks: x0 the batch block, x1 the seven columns, x2 the row of
    constants, x3 … x8 the tower's weights and biases, x9 the head's weights on the tower, x10 the head's bias. -/
theorem head0_row (x0 : Vec Ideal S1024x1024 .bf16) (x1 : Vec Ideal S1024x7 .bf16) (x2 : Vec Ideal S1x8 .f32)
    (x3 : Vec Ideal S1024x500 .bf16) (x4 : Vec Ideal S500 .f32) (x5 : Vec Ideal S500x200 .bf16) (x6 : Vec Ideal S200 .f32)
    (x7 : Vec Ideal S200x200 .bf16) (x8 : Vec Ideal S200 .f32) (x9 : Vec Ideal S200x1 .bf16) (x10 : Vec Ideal S1 .f32) (r : Fin 1024) :
    k0_pay1 (k0_pay13 (k0_pay3 x0) (k0_pay4 x0) (k0_pay5 x0) (k0_pay6 x0) (k0_pay7 x0 x3 x4 x5 x6 x7 x8) (k0_pay8 x9) x10 x1 x2) (ix2 r (0 : Fin 1))
      = Ideal.logistic (cubic (∑ k : Fin 1024, x0 (ix2 r k))
          (∑ k : Fin 1024, x0 (ix2 r k) * x1 (ix2 k (⟨3, by decide⟩ : Fin 7)))
          (∑ k : Fin 1024, x0 (ix2 r k) * x1 (ix2 k (⟨2, by decide⟩ : Fin 7))) (x2 (ix2 (0 : Fin 1) (⟨2, by decide⟩ : Fin 8)))
          (∑ k : Fin 1024, x0 (ix2 r k) * x1 (ix2 k (⟨1, by decide⟩ : Fin 7))) (x2 (ix2 (0 : Fin 1) (⟨1, by decide⟩ : Fin 8)))
          (∑ k : Fin 1024, x0 (ix2 r k) * x1 (ix2 k (⟨0, by decide⟩ : Fin 7))) (x2 (ix2 (0 : Fin 1) (⟨0, by decide⟩ : Fin 8)))
          ((∑ h : Fin 200, tower x0 x3 x4 x5 x6 x7 x8 (ix2 r h) * x9 (ix2 h (0 : Fin 1))) + x10 (ix1 (0 : Fin 1)))) := by
  rw [head0_apply, logit0_apply]
  have e3 : k0_pay3 x0 = x0 := shapeCast_self _ _
  have e8 : k0_pay8 x9 = x9 := shapeCast_self _ _
  have e5 : k0_pay5 x0 (ix2 r (0 : Fin 1)) = k0_pay4 x0 (ix2 r (0 : Fin 1)) * k0_pay4 x0 (ix2 r (0 : Fin 1)) := rfl
  have e6 : k0_pay6 x0 (ix2 r (0 : Fin 1)) = k0_pay5 x0 (ix2 r (0 : Fin 1)) * k0_pay4 x0 (ix2 r (0 : Fin 1)) := rfl
  rw [e6, e5, rowsum_apply, e3, e8, cols_apply, cols_apply, cols_apply, cols_apply, shared_apply, tower_eq]
  rfl

/-- The second stored value at a row. -/
theorem head1_row (x0 : Vec Ideal S1024x1024 .bf16) (x1 : Vec Ideal S1024x7 .bf16) (x2 : Vec Ideal S1x8 .f32)
    (x3 : Vec Ideal S1024x500 .bf16) (x4 : Vec Ideal S500 .f32) (x5 : Vec Ideal S500x200 .bf16) (x6 : Vec Ideal S200 .f32)
    (x7 : Vec Ideal S200x200 .bf16) (x8 : Vec Ideal S200 .f32) (x9 : Vec Ideal S200x1 .bf16) (x10 : Vec Ideal S1 .f32) (r : Fin 1024) :
    k0_pay2 (k0_pay9 (k0_pay7 x0 x3 x4 x5 x6 x7 x8) (k0_pay8 x9) x10) (k0_pay14 (k0_pay3 x0) (k0_pay4 x0) (k0_pay5 x0) (k0_pay6 x0) x1 x2)
        (k0_pay15 (k0_pay3 x0) x1 x2) (ix2 r (0 : Fin 1))
      = Ideal.logistic (cubic (∑ k : Fin 1024, x0 (ix2 r k))
          (∑ k : Fin 1024, x0 (ix2 r k) * x1 (ix2 k (⟨6, by decide⟩ : Fin 7)))
          (∑ k : Fin 1024, x0 (ix2 r k) * x1 (ix2 k (⟨5, by decide⟩ : Fin 7))) (x2 (ix2 (0 : Fin 1) (⟨5, by decide⟩ : Fin 8)))
          (∑ k : Fin 1024, x0 (ix2 r k) * x1 (ix2 k (⟨4, by decide⟩ : Fin 7))) (x2 (ix2 (0 : Fin 1) (⟨4, by decide⟩ : Fin 8)))
          (∑ k : Fin 1024, x0 (ix2 r k) * x1 (ix2 k (⟨0, by decide⟩ : Fin 7))) (x2 (ix2 (0 : Fin 1) (⟨3, by decide⟩ : Fin 8)))
          ((∑ h : Fin 200, tower x0 x3 x4 x5 x6 x7 x8 (ix2 r h) * x9 (ix2 h (0 : Fin 1))) + x10 (ix1 (0 : Fin 1)))) := by
  rw [head1_apply, logit1_apply]
  have e3 : k0_pay3 x0 = x0 := shapeCast_self _ _
  have e8 : k0_pay8 x9 = x9 := shapeCast_self _ _
  have e5 : k0_pay5 x0 (ix2 r (0 : Fin 1)) = k0_pay4 x0 (ix2 r (0 : Fin 1)) * k0_pay4 x0 (ix2 r (0 : Fin 1)) := rfl
  have e6 : k0_pay6 x0 (ix2 r (0 : Fin 1)) = k0_pay5 x0 (ix2 r (0 : Fin 1)) * k0_pay4 x0 (ix2 r (0 : Fin 1)) := rfl
  rw [e6, e5, rowsum_apply, e3, e8, cols_apply, cols_apply, cols_apply, cols_apply, shared_apply, tower_eq]
  rfl

end Cert.KernelIdeal.KBody
end
-- ==== Proof.KernelPrefix.lean ====
/-
  The host operations before the region, as functions of the argument arrays, read at an index.

  From the head's weight column (1224 by 1) the first 1024 entries w weigh the cross network's embedding and the last 200
  the deep tower's output. From the cross weights c(i, j, ·) and biases b(i, j, ·) (task i, layer j) the host forms, per task
  i, the three columns  w·c(i,2),  (w·c(i,1))·c(i,2),  ((w·c(i,0))·c(i,1))·c(i,2)  and the three sums, each from the zero
  word,  Σ w·b(i,2),  Σ (w·c(i,2))·b(i,1),  Σ ((w·c(i,1))·c(i,2))·b(i,0).  The seven columns (w first) are joined into a
  1024-by-7 matrix; the six sums are joined into a row and padded to eight entries. Each read below says what one entry of
  these is in terms of  wcol, crow  of the specification.
-/
import proofs.«174844_j12816182411985_2_alg».proof.Proof.Gen.KernelIdeal
import proofs.«174844_j12816182411985_2_alg».proof.Proof.Spec
import proofs.«174844_j12816182411985_2_alg».proof.Proof.LibColumns
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.KernelIdeal.KPrefix

open Cert.KernelIdeal Cert.KernelIdeal.Gen
open Idealize.ShloMosaic Idealize.ShloMosaic.ValueIdx DenseSpec DcnSpec

/-! ## The host stages before the region, as functions of the head's weight column and the cross weights and biases -/

/-- The head's weight on the embedding: the first 1024 entries of its column, as a vector. -/
def hw (x9 : FVec Ideal S1224x1 .f32) : FVec Ideal S1024 .f32 :=
  shapeCast S1024 (extractStridedSlice S1024x1 ![0, 0] x9 slices_S1224x1_S1024x1_0_0) shapeCasts_S1024x1_S1024

/-- Row (i, j) of the cross weights or biases, as a vector. -/
def crowH (x : FVec Ideal S2x3x1024 .f32) (i j : Nat) (h : S2x3x1024.Slices ![i, j, 0] S1x1x1024) : FVec Ideal S1024 .f32 :=
  shapeCast S1024 (extractStridedSlice S1x1x1024 ![i, j, 0] x h) shapeCasts_S1x1x1024_S1024

theorem hw_apply (x9 : FVec Ideal S1224x1 .f32) (k : Fin 1024) : hw x9 (ix1 k) = wcol x9 k := by
  unfold hw wcol
  refine (shapeCast_apply _ shapeCasts_S1024x1_S1024 (ix1 k) (ix2 k (0 : Fin 1)) ?_).trans ?_
  · rw [Shape.rowMajor_val_two, Shape.rowMajor_val_one]
    show k.val * 1 + 0 = k.val
    omega
  · exact slice2_axis0_apply 0 x9 slices_S1224x1_S1024x1_0_0 k (0 : Fin 1) (⟨k.val, by omega⟩ : Fin 1224) (Nat.zero_add _).symm

theorem crowH_apply (x : FVec Ideal S2x3x1024 .f32) (i j : Nat) (hi : i < 2) (hj : j < 3) (h : S2x3x1024.Slices ![i, j, 0] S1x1x1024)
    (k : Fin 1024) : crowH x i j h (ix1 k) = crow x (⟨i, hi⟩ : Fin 2) (⟨j, hj⟩ : Fin 3) k := by
  unfold crowH crow
  refine (shapeCast_apply _ shapeCasts_S1x1x1024_S1024 (ix1 k) (ix3 (0 : Fin 1) (0 : Fin 1) k) ?_).trans ?_
  · rw [Shape.rowMajor_val_three, Shape.rowMajor_val_one]
    show (0 * 1 + 0) * 1024 + k.val = k.val
    omega
  · exact extractStridedSlice_apply _ x h _ (ix3 (⟨i, hi⟩ : Fin 2) (⟨j, hj⟩ : Fin 3) k) (fun ax => by
      match ax with
      | ⟨0, _⟩ => rfl
      | ⟨1, _⟩ => rfl
      | ⟨2, _⟩ => exact (Nat.zero_add _).symm)

/-- A vector as a column reads, at (k, ·), the vector at k. -/
theorem bcol_apply (u : FVec Ideal S1024 .f32) (k : Fin 1024) (z : Fin 1) :
    broadcastInDim S1024x1 ![0] bcast_S1024_S1024x1_0 u (ix2 k z) = u (ix1 k) :=
  broadcastInDim_apply _ bcast_S1024_S1024x1_0 u (ix2 k z) (ix1 k) fun ax => by
    match ax with
    | ⟨0, _⟩ => rfl

/-- A scalar as a one-entry vector. -/
theorem bscal_apply (u : FVec Ideal S_ .f32) (z : Fin 1) :
    broadcastInDim S1 ![] bcast_S_S1 u (ix1 z) = u ix0 :=
  broadcastInDim_apply _ bcast_S_S1 u (ix1 z) ix0 fun ax => ax.elim0

/-- The indices of a vector are its positions. -/
def idxEquiv1 (n : Nat) : Fin n ≃ (⟨1, ![n]⟩ : Shape).Idx where
  toFun := ix1
  invFun i := i 0
  left_inv _ := rfl
  right_inv i := (eq_ix1 i).symm

theorem sum_idx1 {M : Type*} [AddCommMonoid M] {n : Nat} (f : (⟨1, ![n]⟩ : Shape).Idx → M) : ∑ i, f i = ∑ k : Fin n, f (ix1 k) :=
  (Equiv.sum_comp (idxEquiv1 n) f).symm

/-- The host's sum of a vector from the zero word: zero plus the sum of the entries. -/
theorem rsum_apply (u : FVec Ideal S1024 .f32) :
    Host.reduceAdd u (constant S_ .f32 0x00000000#32) reducesTo_S1024_S_d0 h_S_ ix0 = 0 + ∑ k : Fin 1024, u (ix1 k) := by
  simp only [Host.reduceAdd, Ideal.hostReduceAdd_def]
  rw [Ideal.hostReduceAdd_total reducesTo_S1024_S_d0 (fun b => b.elim0), sum_idx1]
  exact congrArg (· + _) Ideal.ofBits_zero_f32

/-- Seven columns joined side by side read, at (k, j), column j at row k. -/
theorem concat7_apply (p : Fin 7 → FVec Ideal S1024x1 .f32)
    (h : Shape.Concatenates (([⟨S1024x1, p 0⟩, ⟨S1024x1, p 1⟩, ⟨S1024x1, p 2⟩, ⟨S1024x1, p 3⟩, ⟨S1024x1, p 4⟩, ⟨S1024x1, p 5⟩, ⟨S1024x1, p 6⟩] : List ((s : Shape) × (s.Idx → EReal))).map (·.1)) S1024x7 1)
    (k : Fin 1024) (j : Fin 7) :
    concatenate S1024x7 1 [⟨S1024x1, p 0⟩, ⟨S1024x1, p 1⟩, ⟨S1024x1, p 2⟩, ⟨S1024x1, p 3⟩, ⟨S1024x1, p 4⟩, ⟨S1024x1, p 5⟩, ⟨S1024x1, p 6⟩] h (ix2 k j)
      = p j (ix2 k (0 : Fin 1)) := by
  have hi : ∀ b : Fin S1024x1.rank, b.cast (rfl : S1024x1.rank = S1024x7.rank) ≠ (1 : Fin S1024x7.rank) →
      ((ix2 k (0 : Fin 1) : S1024x1.Idx) b).val = ((ix2 k j : S1024x7.Idx) (b.cast rfl)).val := fun b hb => by
    match b with
    | ⟨0, _⟩ => rfl
    | ⟨1, _⟩ => exact absurd rfl hb
  match j with
  | ⟨0, _⟩ => exact concatenate_apply_piece (1 : Fin S1024x7.rank) _ h _ 0 (by simp) S1024x1 (p 0) rfl rfl 0 rfl (ix2 k (0 : Fin 1)) hi rfl
  | ⟨1, _⟩ => exact concatenate_apply_piece (1 : Fin S1024x7.rank) _ h _ 1 (by simp) S1024x1 (p 1) rfl rfl 1 rfl (ix2 k (0 : Fin 1)) hi rfl
  | ⟨2, _⟩ => exact concatenate_apply_piece (1 : Fin S1024x7.rank) _ h _ 2 (by simp) S1024x1 (p 2) rfl rfl 2 rfl (ix2 k (0 : Fin 1)) hi rfl
  | ⟨3, _⟩ => exact concatenate_apply_piece (1 : Fin S1024x7.rank) _ h _ 3 (by simp) S1024x1 (p 3) rfl rfl 3 rfl (ix2 k (0 : Fin 1)) hi rfl
  | ⟨4, _⟩ => exact concatenate_apply_piece (1 : Fin S1024x7.rank) _ h _ 4 (by simp) S1024x1 (p 4) rfl rfl 4 rfl (ix2 k (0 : Fin 1)) hi rfl
  | ⟨5, _⟩ => exact concatenate_apply_piece (1 : Fin S1024x7.rank) _ h _ 5 (by simp) S1024x1 (p 5) rfl rfl 5 rfl (ix2 k (0 : Fin 1)) hi rfl
  | ⟨6, _⟩ => exact concatenate_apply_piece (1 : Fin S1024x7.rank) _ h _ 6 (by simp) S1024x1 (p 6) rfl rfl 6 rfl (ix2 k (0 : Fin 1)) hi rfl

/-- Six one-entry vectors joined end to end read, at j, piece j. -/
theorem concat6_apply (p : Fin 6 → FVec Ideal S1 .f32)
    (h : Shape.Concatenates (([⟨S1, p 0⟩, ⟨S1, p 1⟩, ⟨S1, p 2⟩, ⟨S1, p 3⟩, ⟨S1, p 4⟩, ⟨S1, p 5⟩] : List ((s : Shape) × (s.Idx → EReal))).map (·.1)) S6 0)
    (j : Fin 6) :
    concatenate S6 0 [⟨S1, p 0⟩, ⟨S1, p 1⟩, ⟨S1, p 2⟩, ⟨S1, p 3⟩, ⟨S1, p 4⟩, ⟨S1, p 5⟩] h (ix1 j) = p j (ix1 (0 : Fin 1)) := by
  have hi : ∀ b : Fin S1.rank, b.cast (rfl : S1.rank = S6.rank) ≠ (0 : Fin S6.rank) →
      ((ix1 (0 : Fin 1) : S1.Idx) b).val = ((ix1 j : S6.Idx) (b.cast rfl)).val := fun b hb => by
    match b with
    | ⟨0, _⟩ => exact absurd rfl hb
  match j with
  | ⟨0, _⟩ => exact concatenate_apply_piece (0 : Fin S6.rank) _ h _ 0 (by simp) S1 (p 0) rfl rfl 0 rfl (ix1 (0 : Fin 1)) hi rfl
  | ⟨1, _⟩ => exact concatenate_apply_piece (0 : Fin S6.rank) _ h _ 1 (by simp) S1 (p 1) rfl rfl 1 rfl (ix1 (0 : Fin 1)) hi rfl
  | ⟨2, _⟩ => exact concatenate_apply_piece (0 : Fin S6.rank) _ h _ 2 (by simp) S1 (p 2) rfl rfl 2 rfl (ix1 (0 : Fin 1)) hi rfl
  | ⟨3, _⟩ => exact concatenate_apply_piece (0 : Fin S6.rank) _ h _ 3 (by simp) S1 (p 3) rfl rfl 3 rfl (ix1 (0 : Fin 1)) hi rfl
  | ⟨4, _⟩ => exact concatenate_apply_piece (0 : Fin S6.rank) _ h _ 4 (by simp) S1 (p 4) rfl rfl 4 rfl (ix1 (0 : Fin 1)) hi rfl
  | ⟨5, _⟩ => exact concatenate_apply_piece (0 : Fin S6.rank) _ h _ 5 (by simp) S1 (p 5) rfl rfl 5 rfl (ix1 (0 : Fin 1)) hi rfl

/-- The six constants as a row, padded with two zeros, read inside the six. -/
theorem padrow_apply (v : FVec Ideal S6 .f32) (z : FVec Ideal S_ .f32) (j : Fin 6) :
    pad S1x8 ![0, 0] ![0, 2] ![0, 0] (shapeCast S1x6 v shapeCasts_S6_S1x6) z pads_S1x6_S1x8_000_020 h_S_ (ix2 (0 : Fin 1) (⟨j.val, by omega⟩ : Fin 8))
      = v (ix1 j) := by
  refine (pad_apply_of_inside _ _ _ _ z pads_S1x6_S1x8_000_020 h_S_ _ (ix2 (0 : Fin 1) j) (fun ax => by
    match ax with
    | ⟨0, _⟩ => rfl
    | ⟨1, _⟩ => show j.val = 0 + j.val * (0 + 1); omega)).trans ?_
  exact shapeCast_a_1a_apply v shapeCasts_S6_S1x6 (0 : Fin 1) j

theorem crowH_00 (x : FVec Ideal S2x3x1024 .f32) (k : Fin 1024) : crowH x 0 0 slices_S2x3x1024_S1x1x1024_0_0_0 (ix1 k) = crow x 0 0 k :=
  crowH_apply x 0 0 (by decide) (by decide) _ k
theorem crowH_01 (x : FVec Ideal S2x3x1024 .f32) (k : Fin 1024) : crowH x 0 1 slices_S2x3x1024_S1x1x1024_0_1_0 (ix1 k) = crow x 0 1 k :=
  crowH_apply x 0 1 (by decide) (by decide) _ k
theorem crowH_02 (x : FVec Ideal S2x3x1024 .f32) (k : Fin 1024) : crowH x 0 2 slices_S2x3x1024_S1x1x1024_0_2_0 (ix1 k) = crow x 0 2 k :=
  crowH_apply x 0 2 (by decide) (by decide) _ k
theorem crowH_10 (x : FVec Ideal S2x3x1024 .f32) (k : Fin 1024) : crowH x 1 0 slices_S2x3x1024_S1x1x1024_1_0_0 (ix1 k) = crow x 1 0 k :=
  crowH_apply x 1 0 (by decide) (by decide) _ k
theorem crowH_11 (x : FVec Ideal S2x3x1024 .f32) (k : Fin 1024) : crowH x 1 1 slices_S2x3x1024_S1x1x1024_1_1_0 (ix1 k) = crow x 1 1 k :=
  crowH_apply x 1 1 (by decide) (by decide) _ k
theorem crowH_12 (x : FVec Ideal S2x3x1024 .f32) (k : Fin 1024) : crowH x 1 2 slices_S2x3x1024_S1x1x1024_1_2_0 (ix1 k) = crow x 1 2 k :=
  crowH_apply x 1 2 (by decide) (by decide) _ k

/-! ## The seven columns and the six constants -/

section Stages
variable (x9 : FVec Ideal S1224x1 .f32) (cw cb : FVec Ideal S2x3x1024 .f32)

/-- The seven columns of the collapsed cross network: the head's weight w, then per task w·c2, (w·c1)·c2, ((w·c0)·c1)·c2. -/
def ucols : Fin 7 → FVec Ideal S1024x1 .f32 := fun j => match j with
  | ⟨0, _⟩ => broadcastInDim S1024x1 ![0] bcast_S1024_S1024x1_0 (hw x9)
  | ⟨1, _⟩ => broadcastInDim S1024x1 ![0] bcast_S1024_S1024x1_0 (mulf (hw x9) (crowH cw 0 2 slices_S2x3x1024_S1x1x1024_0_2_0))
  | ⟨2, _⟩ => broadcastInDim S1024x1 ![0] bcast_S1024_S1024x1_0 (mulf (mulf (hw x9) (crowH cw 0 1 slices_S2x3x1024_S1x1x1024_0_1_0)) (crowH cw 0 2 slices_S2x3x1024_S1x1x1024_0_2_0))
  | ⟨3, _⟩ => broadcastInDim S1024x1 ![0] bcast_S1024_S1024x1_0 (mulf (mulf (mulf (hw x9) (crowH cw 0 0 slices_S2x3x1024_S1x1x1024_0_0_0)) (crowH cw 0 1 slices_S2x3x1024_S1x1x1024_0_1_0)) (crowH cw 0 2 slices_S2x3x1024_S1x1x1024_0_2_0))
  | ⟨4, _⟩ => broadcastInDim S1024x1 ![0] bcast_S1024_S1024x1_0 (mulf (hw x9) (crowH cw 1 2 slices_S2x3x1024_S1x1x1024_1_2_0))
  | ⟨5, _⟩ => broadcastInDim S1024x1 ![0] bcast_S1024_S1024x1_0 (mulf (mulf (hw x9) (crowH cw 1 1 slices_S2x3x1024_S1x1x1024_1_1_0)) (crowH cw 1 2 slices_S2x3x1024_S1x1x1024_1_2_0))
  | ⟨6, _⟩ => broadcastInDim S1024x1 ![0] bcast_S1024_S1024x1_0 (mulf (mulf (mulf (hw x9) (crowH cw 1 0 slices_S2x3x1024_S1x1x1024_1_0_0)) (crowH cw 1 1 slices_S2x3x1024_S1x1x1024_1_1_0)) (crowH cw 1 2 slices_S2x3x1024_S1x1x1024_1_2_0))

/-- The seven columns joined into one matrix (the change of float format is the identity at the ideal values). -/
def ucat : FVec Ideal S1024x7 .bf16 :=
  truncf .bf16 (concatenate S1024x7 1 [⟨S1024x1, ucols x9 cw 0⟩, ⟨S1024x1, ucols x9 cw 1⟩, ⟨S1024x1, ucols x9 cw 2⟩, ⟨S1024x1, ucols x9 cw 3⟩, ⟨S1024x1, ucols x9 cw 4⟩, ⟨S1024x1, ucols x9 cw 5⟩, ⟨S1024x1, ucols x9 cw 6⟩]
    concatenates_S1024x1_S1024x1_S1024x1_S1024x1_S1024x1_S1024x1_S1024x1_S1024x7_d1) bitsLt_bf16_f32

/-- The six constants: per task the sums of w·b2, (w·c2)·b1, ((w·c1)·c2)·b0, each from the zero word. -/
def acols : Fin 6 → FVec Ideal S1 .f32 := fun j => match j with
  | ⟨0, _⟩ => broadcastInDim S1 ![] bcast_S_S1 (Host.reduceAdd (mulf (hw x9) (crowH cb 0 2 slices_S2x3x1024_S1x1x1024_0_2_0)) (constant S_ .f32 0x00000000#32) reducesTo_S1024_S_d0 h_S_)
  | ⟨1, _⟩ => broadcastInDim S1 ![] bcast_S_S1 (Host.reduceAdd (mulf (mulf (hw x9) (crowH cw 0 2 slices_S2x3x1024_S1x1x1024_0_2_0)) (crowH cb 0 1 slices_S2x3x1024_S1x1x1024_0_1_0)) (constant S_ .f32 0x00000000#32) reducesTo_S1024_S_d0 h_S_)
  | ⟨2, _⟩ => broadcastInDim S1 ![] bcast_S_S1 (Host.reduceAdd (mulf (mulf (mulf (hw x9) (crowH cw 0 1 slices_S2x3x1024_S1x1x1024_0_1_0)) (crowH cw 0 2 slices_S2x3x1024_S1x1x1024_0_2_0)) (crowH cb 0 0 slices_S2x3x1024_S1x1x1024_0_0_0)) (constant S_ .f32 0x00000000#32) reducesTo_S1024_S_d0 h_S_)
  | ⟨3, _⟩ => broadcastInDim S1 ![] bcast_S_S1 (Host.reduceAdd (mulf (hw x9) (crowH cb 1 2 slices_S2x3x1024_S1x1x1024_1_2_0)) (constant S_ .f32 0x00000000#32) reducesTo_S1024_S_d0 h_S_)
  | ⟨4, _⟩ => broadcastInDim S1 ![] bcast_S_S1 (Host.reduceAdd (mulf (mulf (hw x9) (crowH cw 1 2 slices_S2x3x1024_S1x1x1024_1_2_0)) (crowH cb 1 1 slices_S2x3x1024_S1x1x1024_1_1_0)) (constant S_ .f32 0x00000000#32) reducesTo_S1024_S_d0 h_S_)
  | ⟨5, _⟩ => broadcastInDim S1 ![] bcast_S_S1 (Host.reduceAdd (mulf (mulf (mulf (hw x9) (crowH cw 1 1 slices_S2x3x1024_S1x1x1024_1_1_0)) (crowH cw 1 2 slices_S2x3x1024_S1x1x1024_1_2_0)) (crowH cb 1 0 slices_S2x3x1024_S1x1x1024_1_0_0)) (constant S_ .f32 0x00000000#32) reducesTo_S1024_S_d0 h_S_)

/-- The six constants as a row of eight, the last two the padding value. -/
def avec : FVec Ideal S1x8 .f32 :=
  pad S1x8 ![0, 0] ![0, 2] ![0, 0]
    (shapeCast S1x6 (concatenate S6 0 [⟨S1, acols x9 cw cb 0⟩, ⟨S1, acols x9 cw cb 1⟩, ⟨S1, acols x9 cw cb 2⟩, ⟨S1, acols x9 cw cb 3⟩, ⟨S1, acols x9 cw cb 4⟩, ⟨S1, acols x9 cw cb 5⟩]
      concatenates_S1_S1_S1_S1_S1_S1_S6_d0) shapeCasts_S6_S1x6)
    (sitofp .f32 (constantI S_ 32 0#32)) pads_S1x6_S1x8_000_020 h_S_

theorem ucat_apply (k : Fin 1024) (j : Fin 7) : ucat x9 cw (ix2 k j) = ucols x9 cw j (ix2 k (0 : Fin 1)) := by
  unfold ucat
  rw [truncf_apply]
  exact concat7_apply (ucols x9 cw) _ k j

theorem avec_apply (j : Fin 6) : avec x9 cw cb (ix2 (0 : Fin 1) (⟨j.val, by omega⟩ : Fin 8)) = acols x9 cw cb j (ix1 (0 : Fin 1)) := by
  unfold avec
  rw [padrow_apply]
  exact concat6_apply (acols x9 cw cb) _ j

theorem ucat_0 (k : Fin 1024) : ucat x9 cw (ix2 k (⟨0, by decide⟩ : Fin 7)) = wcol x9 k := by
  rw [ucat_apply]
  show broadcastInDim S1024x1 ![0] bcast_S1024_S1024x1_0 (hw x9) (ix2 k (0 : Fin 1)) = _
  rw [bcol_apply]
  simp only [mulf_apply, hw_apply, crowH_00, crowH_01, crowH_02, crowH_10, crowH_11, crowH_12]
theorem ucat_1 (k : Fin 1024) : ucat x9 cw (ix2 k (⟨1, by decide⟩ : Fin 7)) = wcol x9 k * crow cw 0 2 k := by
  rw [ucat_apply]
  show broadcastInDim S1024x1 ![0] bcast_S1024_S1024x1_0 (mulf (hw x9) (crowH cw 0 2 slices_S2x3x1024_S1x1x1024_0_2_0)) (ix2 k (0 : Fin 1)) = _
  rw [bcol_apply]
  simp only [mulf_apply, hw_apply, crowH_00, crowH_01, crowH_02, crowH_10, crowH_11, crowH_12]
theorem ucat_2 (k : Fin 1024) : ucat x9 cw (ix2 k (⟨2, by decide⟩ : Fin 7)) = (wcol x9 k * crow cw 0 1 k) * crow cw 0 2 k := by
  rw [ucat_apply]
  show broadcastInDim S1024x1 ![0] bcast_S1024_S1024x1_0 (mulf (mulf (hw x9) (crowH cw 0 1 slices_S2x3x1024_S1x1x1024_0_1_0)) (crowH cw 0 2 slices_S2x3x1024_S1x1x1024_0_2_0)) (ix2 k (0 : Fin 1)) = _
  rw [bcol_apply]
  simp only [mulf_apply, hw_apply, crowH_00, crowH_01, crowH_02, crowH_10, crowH_11, crowH_12]
theorem ucat_3 (k : Fin 1024) : ucat x9 cw (ix2 k (⟨3, by decide⟩ : Fin 7)) = ((wcol x9 k * crow cw 0 0 k) * crow cw 0 1 k) * crow cw 0 2 k := by
  rw [ucat_apply]
  show broadcastInDim S1024x1 ![0] bcast_S1024_S1024x1_0 (mulf (mulf (mulf (hw x9) (crowH cw 0 0 slices_S2x3x1024_S1x1x1024_0_0_0)) (crowH cw 0 1 slices_S2x3x1024_S1x1x1024_0_1_0)) (crowH cw 0 2 slices_S2x3x1024_S1x1x1024_0_2_0)) (ix2 k (0 : Fin 1)) = _
  rw [bcol_apply]
  simp only [mulf_apply, hw_apply, crowH_00, crowH_01, crowH_02, crowH_10, crowH_11, crowH_12]
theorem ucat_4 (k : Fin 1024) : ucat x9 cw (ix2 k (⟨4, by decide⟩ : Fin 7)) = wcol x9 k * crow cw 1 2 k := by
  rw [ucat_apply]
  show broadcastInDim S1024x1 ![0] bcast_S1024_S1024x1_0 (mulf (hw x9) (crowH cw 1 2 slices_S2x3x1024_S1x1x1024_1_2_0)) (ix2 k (0 : Fin 1)) = _
  rw [bcol_apply]
  simp only [mulf_apply, hw_apply, crowH_00, crowH_01, crowH_02, crowH_10, crowH_11, crowH_12]
theorem ucat_5 (k : Fin 1024) : ucat x9 cw (ix2 k (⟨5, by decide⟩ : Fin 7)) = (wcol x9 k * crow cw 1 1 k) * crow cw 1 2 k := by
  rw [ucat_apply]
  show broadcastInDim S1024x1 ![0] bcast_S1024_S1024x1_0 (mulf (mulf (hw x9) (crowH cw 1 1 slices_S2x3x1024_S1x1x1024_1_1_0)) (crowH cw 1 2 slices_S2x3x1024_S1x1x1024_1_2_0)) (ix2 k (0 : Fin 1)) = _
  rw [bcol_apply]
  simp only [mulf_apply, hw_apply, crowH_00, crowH_01, crowH_02, crowH_10, crowH_11, crowH_12]
theorem ucat_6 (k : Fin 1024) : ucat x9 cw (ix2 k (⟨6, by decide⟩ : Fin 7)) = ((wcol x9 k * crow cw 1 0 k) * crow cw 1 1 k) * crow cw 1 2 k := by
  rw [ucat_apply]
  show broadcastInDim S1024x1 ![0] bcast_S1024_S1024x1_0 (mulf (mulf (mulf (hw x9) (crowH cw 1 0 slices_S2x3x1024_S1x1x1024_1_0_0)) (crowH cw 1 1 slices_S2x3x1024_S1x1x1024_1_1_0)) (crowH cw 1 2 slices_S2x3x1024_S1x1x1024_1_2_0)) (ix2 k (0 : Fin 1)) = _
  rw [bcol_apply]
  simp only [mulf_apply, hw_apply, crowH_00, crowH_01, crowH_02, crowH_10, crowH_11, crowH_12]

theorem avec_0 : avec x9 cw cb (ix2 (0 : Fin 1) (⟨0, by decide⟩ : Fin 8)) = 0 + ∑ k : Fin 1024, wcol x9 k * crow cb 0 2 k := by
  rw [avec_apply x9 cw cb (⟨0, by decide⟩ : Fin 6)]
  show broadcastInDim S1 ![] bcast_S_S1 (Host.reduceAdd (mulf (hw x9) (crowH cb 0 2 slices_S2x3x1024_S1x1x1024_0_2_0)) (constant S_ .f32 0x00000000#32) reducesTo_S1024_S_d0 h_S_) (ix1 (0 : Fin 1)) = _
  rw [bscal_apply, rsum_apply]
  simp only [mulf_apply, hw_apply, crowH_00, crowH_01, crowH_02, crowH_10, crowH_11, crowH_12]
theorem avec_1 : avec x9 cw cb (ix2 (0 : Fin 1) (⟨1, by decide⟩ : Fin 8)) = 0 + ∑ k : Fin 1024, (wcol x9 k * crow cw 0 2 k) * crow cb 0 1 k := by
  rw [avec_apply x9 cw cb (⟨1, by decide⟩ : Fin 6)]
  show broadcastInDim S1 ![] bcast_S_S1 (Host.reduceAdd (mulf (mulf (hw x9) (crowH cw 0 2 slices_S2x3x1024_S1x1x1024_0_2_0)) (crowH cb 0 1 slices_S2x3x1024_S1x1x1024_0_1_0)) (constant S_ .f32 0x00000000#32) reducesTo_S1024_S_d0 h_S_) (ix1 (0 : Fin 1)) = _
  rw [bscal_apply, rsum_apply]
  simp only [mulf_apply, hw_apply, crowH_00, crowH_01, crowH_02, crowH_10, crowH_11, crowH_12]
theorem avec_2 : avec x9 cw cb (ix2 (0 : Fin 1) (⟨2, by decide⟩ : Fin 8)) = 0 + ∑ k : Fin 1024, ((wcol x9 k * crow cw 0 1 k) * crow cw 0 2 k) * crow cb 0 0 k := by
  rw [avec_apply x9 cw cb (⟨2, by decide⟩ : Fin 6)]
  show broadcastInDim S1 ![] bcast_S_S1 (Host.reduceAdd (mulf (mulf (mulf (hw x9) (crowH cw 0 1 slices_S2x3x1024_S1x1x1024_0_1_0)) (crowH cw 0 2 slices_S2x3x1024_S1x1x1024_0_2_0)) (crowH cb 0 0 slices_S2x3x1024_S1x1x1024_0_0_0)) (constant S_ .f32 0x00000000#32) reducesTo_S1024_S_d0 h_S_) (ix1 (0 : Fin 1)) = _
  rw [bscal_apply, rsum_apply]
  simp only [mulf_apply, hw_apply, crowH_00, crowH_01, crowH_02, crowH_10, crowH_11, crowH_12]
theorem avec_3 : avec x9 cw cb (ix2 (0 : Fin 1) (⟨3, by decide⟩ : Fin 8)) = 0 + ∑ k : Fin 1024, wcol x9 k * crow cb 1 2 k := by
  rw [avec_apply x9 cw cb (⟨3, by decide⟩ : Fin 6)]
  show broadcastInDim S1 ![] bcast_S_S1 (Host.reduceAdd (mulf (hw x9) (crowH cb 1 2 slices_S2x3x1024_S1x1x1024_1_2_0)) (constant S_ .f32 0x00000000#32) reducesTo_S1024_S_d0 h_S_) (ix1 (0 : Fin 1)) = _
  rw [bscal_apply, rsum_apply]
  simp only [mulf_apply, hw_apply, crowH_00, crowH_01, crowH_02, crowH_10, crowH_11, crowH_12]
theorem avec_4 : avec x9 cw cb (ix2 (0 : Fin 1) (⟨4, by decide⟩ : Fin 8)) = 0 + ∑ k : Fin 1024, (wcol x9 k * crow cw 1 2 k) * crow cb 1 1 k := by
  rw [avec_apply x9 cw cb (⟨4, by decide⟩ : Fin 6)]
  show broadcastInDim S1 ![] bcast_S_S1 (Host.reduceAdd (mulf (mulf (hw x9) (crowH cw 1 2 slices_S2x3x1024_S1x1x1024_1_2_0)) (crowH cb 1 1 slices_S2x3x1024_S1x1x1024_1_1_0)) (constant S_ .f32 0x00000000#32) reducesTo_S1024_S_d0 h_S_) (ix1 (0 : Fin 1)) = _
  rw [bscal_apply, rsum_apply]
  simp only [mulf_apply, hw_apply, crowH_00, crowH_01, crowH_02, crowH_10, crowH_11, crowH_12]
theorem avec_5 : avec x9 cw cb (ix2 (0 : Fin 1) (⟨5, by decide⟩ : Fin 8)) = 0 + ∑ k : Fin 1024, ((wcol x9 k * crow cw 1 1 k) * crow cw 1 2 k) * crow cb 1 0 k := by
  rw [avec_apply x9 cw cb (⟨5, by decide⟩ : Fin 6)]
  show broadcastInDim S1 ![] bcast_S_S1 (Host.reduceAdd (mulf (mulf (mulf (hw x9) (crowH cw 1 1 slices_S2x3x1024_S1x1x1024_1_1_0)) (crowH cw 1 2 slices_S2x3x1024_S1x1x1024_1_2_0)) (crowH cb 1 0 slices_S2x3x1024_S1x1x1024_1_0_0)) (constant S_ .f32 0x00000000#32) reducesTo_S1024_S_d0 h_S_) (ix1 (0 : Fin 1)) = _
  rw [bscal_apply, rsum_apply]
  simp only [mulf_apply, hw_apply, crowH_00, crowH_01, crowH_02, crowH_10, crowH_11, crowH_12]

end Stages

/-- The head's weights on the tower's output: the last 200 entries of its column. -/
def wld (x9 : FVec Ideal S1224x1 .f32) : FVec Ideal S200x1 .bf16 :=
  truncf .bf16 (extractStridedSlice S200x1 ![1024, 0] x9 slices_S1224x1_S200x1_1024_0) bitsLt_bf16_f32

theorem wld_apply (x9 : FVec Ideal S1224x1 .f32) (h : Fin 200) : wld x9 (ix2 h (0 : Fin 1)) = wdeep x9 h := by
  unfold wld wdeep
  rw [truncf_apply]
  exact slice2_axis0_apply 1024 x9 slices_S1224x1_S200x1_1024_0 h (0 : Fin 1) (⟨1024 + h.val, by omega⟩ : Fin 1224) rfl

end Cert.KernelIdeal.KPrefix
end
-- ==== Proof.KernelRow.lean ====
/-
  The kernel's cubic, with the seven columns and the six constants the host prepared, is the specification's collapsed
  logit: column j of the joined matrix is w times the product of cross weights that the power of the row sum carries, and
  constant j is the matching sum of w times cross weights times a cross bias, from zero.
-/
import proofs.«174844_j12816182411985_2_alg».proof.Proof.KernelBody
import proofs.«174844_j12816182411985_2_alg».proof.Proof.KernelPrefix

noncomputable section

namespace Cert.KernelIdeal.KRow

open Cert.KernelIdeal Cert.KernelIdeal.Gen Cert.KernelIdeal.KBody Cert.KernelIdeal.KPrefix
open Idealize.ShloMosaic Idealize.ShloMosaic.ValueIdx DenseSpec DcnSpec

variable (x9 : FVec Ideal S1224x1 .f32) (cw cb : FVec Ideal S2x3x1024 .f32)

/-- The first head: columns 3, 2, 1, 0 and constants 2, 1, 0. -/
theorem cubic_task0 (xr : Fin 1024 → EReal) (D bl : EReal) :
    cubic (∑ k : Fin 1024, xr k)
        (∑ k : Fin 1024, xr k * ucat x9 cw (ix2 k (⟨3, by decide⟩ : Fin 7)))
        (∑ k : Fin 1024, xr k * ucat x9 cw (ix2 k (⟨2, by decide⟩ : Fin 7))) (avec x9 cw cb (ix2 (0 : Fin 1) (⟨2, by decide⟩ : Fin 8)))
        (∑ k : Fin 1024, xr k * ucat x9 cw (ix2 k (⟨1, by decide⟩ : Fin 7))) (avec x9 cw cb (ix2 (0 : Fin 1) (⟨1, by decide⟩ : Fin 8)))
        (∑ k : Fin 1024, xr k * ucat x9 cw (ix2 k (⟨0, by decide⟩ : Fin 7))) (avec x9 cw cb (ix2 (0 : Fin 1) (⟨0, by decide⟩ : Fin 8)))
        (D + bl)
      = logitK xr (wcol x9) (crow cw 0 0) (crow cw 0 1) (crow cw 0 2) (crow cb 0 0) (crow cb 0 1) (crow cb 0 2) D bl := by
  simp only [ucat_0, ucat_1, ucat_2, ucat_3, avec_0, avec_1, avec_2]
  rfl

/-- The second head: columns 6, 5, 4, 0 and constants 5, 4, 3. -/
theorem cubic_task1 (xr : Fin 1024 → EReal) (D bl : EReal) :
    cubic (∑ k : Fin 1024, xr k)
        (∑ k : Fin 1024, xr k * ucat x9 cw (ix2 k (⟨6, by decide⟩ : Fin 7)))
        (∑ k : Fin 1024, xr k * ucat x9 cw (ix2 k (⟨5, by decide⟩ : Fin 7))) (avec x9 cw cb (ix2 (0 : Fin 1) (⟨5, by decide⟩ : Fin 8)))
        (∑ k : Fin 1024, xr k * ucat x9 cw (ix2 k (⟨4, by decide⟩ : Fin 7))) (avec x9 cw cb (ix2 (0 : Fin 1) (⟨4, by decide⟩ : Fin 8)))
        (∑ k : Fin 1024, xr k * ucat x9 cw (ix2 k (⟨0, by decide⟩ : Fin 7))) (avec x9 cw cb (ix2 (0 : Fin 1) (⟨3, by decide⟩ : Fin 8)))
        (D + bl)
      = logitK xr (wcol x9) (crow cw 1 0) (crow cw 1 1) (crow cw 1 2) (crow cb 1 0) (crow cb 1 1) (crow cb 1 2) D bl := by
  simp only [ucat_0, ucat_4, ucat_5, ucat_6, avec_3, avec_4, avec_5]
  rfl

end Cert.KernelIdeal.KRow

end
-- ==== Proof.TowerRows.lean ====
/-
  Rows of the deep tower.

  A dense layer's entry (r, c) reads one row of its input; the rectifier is entrywise. So each row of the tower's output,
  and with it the tower's contribution to a row's logit, is a function of the same row of the batch: a block of rows of the
  batch yields the same block of rows of the output, whichever array the rows sit in.
-/
import proofs.«174844_j12816182411985_2_alg».proof.Proof.Spec

noncomputable section

namespace DcnSpec

open Idealize.ShloMosaic Idealize.ShloMosaic.ValueIdx DenseSpec

/-- A row of the rectified layer is a function of the same row of its input. -/
theorem relu_dense_rows {R R' K P : Nat} (a : Mat R K) (a' : Mat R' K) (w : Mat K P) (b : Mat 1 P) (r : Fin R) (r' : Fin R')
    (h : ∀ k : Fin K, a' (ix2 r' k) = a (ix2 r k)) (c : Fin P) : relu (dense a' w b) (ix2 r' c) = relu (dense a w b) (ix2 r c) := by
  show max (dense a' w b (ix2 r' c)) _ = max (dense a w b (ix2 r c)) _
  rw [dense_rows a a' w b r r' h c]

/-- A row of the tower's output is a function of the same row of the batch: a block of rows of the batch gives the same
    block of rows of the output. -/
theorem tower_rows {B B' : Nat} (x : Mat B 1024) (x' : Mat B' 1024) (W1 : Mat 1024 500) (b1 : V1 500) (W2 : Mat 500 200) (b2 : V1 200)
    (W3 : Mat 200 200) (b3 : V1 200) (r : Fin B) (r' : Fin B') (h : ∀ k : Fin 1024, x' (ix2 r' k) = x (ix2 r k)) (c : Fin 200) :
    tower x' W1 b1 W2 b2 W3 b3 (ix2 r' c) = tower x W1 b1 W2 b2 W3 b3 (ix2 r c) := by
  unfold tower
  exact relu_dense_rows _ _ W3 (row b3) r r' (fun k2 => relu_dense_rows _ _ W2 (row b2) r r' (fun k1 => relu_dense_rows x x' W1 (row b1) r r' h k1) k2) c

/-- So the tower's contribution to a row's logit is a function of that row. -/
theorem deep_rows {B B' : Nat} (x : Mat B 1024) (x' : Mat B' 1024) (W1 : Mat 1024 500) (b1 : V1 500) (W2 : Mat 500 200) (b2 : V1 200)
    (W3 : Mat 200 200) (b3 : V1 200) (Wl : Mat 1224 1) (r : Fin B) (r' : Fin B') (h : ∀ k : Fin 1024, x' (ix2 r' k) = x (ix2 r k)) :
    deep x' W1 b1 W2 b2 W3 b3 Wl r' = deep x W1 b1 W2 b2 W3 b3 Wl r := by
  unfold deep
  exact Finset.sum_congr rfl fun c _ => by rw [tower_rows x x' W1 b1 W2 b2 W3 b3 r r' h c]

end DcnSpec

end
-- ==== Proof.KernelValue.lean ====
/-
  The kernel's two results after the run, as whole-array functions of the argument arrays.

  The region's sixteen points each write back 1024 rows of each result. At point t the batch window holds rows
  1024·t … 1024·t + 1023 of the batch; the other ten inputs are resident: their blocks are the whole arrays the host
  prepared (the seven columns, the six constants, the tower's weights and biases, the head's weights on the tower and its
  bias). Reading the body's two stores at a row (the body's arithmetic at a row, the host stages at an index, and that a row
  of the tower depends on one row of the batch) gives row 1024·t + r of the specification's head; the sixteen blocks cover
  the result, so the result is the specification's head, whole.

  A joining operation over seven (or six) listed operands is evaluated with each operand's contents at its own
  reference, so that the stages under it evaluate in turn.
-/
import proofs.«174844_j12816182411985_2_alg».proof.Proof.FrameKernelIdeal
import proofs.«174844_j12816182411985_2_alg».proof.Proof.Spec
import proofs.«174844_j12816182411985_2_alg».proof.Proof.LibDense
import proofs.«174844_j12816182411985_2_alg».proof.Proof.KernelBody
import proofs.«174844_j12816182411985_2_alg».proof.Proof.KernelPrefix
import proofs.«174844_j12816182411985_2_alg».proof.Proof.KernelRow
import proofs.«174844_j12816182411985_2_alg».proof.Proof.TowerRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KValue

open Cert.KernelIdeal Cert.KernelIdeal.Gen Cert.KernelIdeal.Hand Cert.KernelIdeal.KBody Cert.KernelIdeal.KPrefix
open Idealize.ShloMosaic Idealize.ShloMosaic.TcCoe Idealize.SL.Sem Idealize.ShloMosaic.ValueIdx DenseSpec DcnSpec
open Idealize.ShloMosaic.Pipeline (Dat)

variable (m : (ℓ : Loc nD τ sig) → Buf (Elt Ideal) ℓ) (ρ : Dev nD → PrngReg)

set_option maxRecDepth 100000 in
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-! ## A joining operation's result, its operands' contents each at its own reference -/

section Joins
variable {x0 x1 x2 x3 x4 x5 x6 y : Ref sig .tc}

/-- The result of an operation over seven listed operands, each operand's contents read at its own reference. -/
theorem nary7_result
    (f : ((k : Fin 7) → ((![x0, x1, x2, x3, x4, x5, x6] : Fin 7 → Ref sig .tc) k).ty.Contents (Elt Ideal)) → y.ty.Contents (Elt Ideal)) (hxs hy)
    (F : Valuation τ sig (Elt Ideal)) :
    (StableHlo.nary (τ := τ) ![x0, x1, x2, x3, x4, x5, x6] y f hxs hy).result F (Proc.devRef .tc y)
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (fun i => i.elim0)))))))) := by
  rw [StableHlo.nary_result]; congr 1; funext k; fin_cases k <;> rfl

/-- The same over six listed operands. -/
theorem nary6_result
    (f : ((k : Fin 6) → ((![x0, x1, x2, x3, x4, x5] : Fin 6 → Ref sig .tc) k).ty.Contents (Elt Ideal)) → y.ty.Contents (Elt Ideal)) (hxs hy)
    (F : Valuation τ sig (Elt Ideal)) :
    (StableHlo.nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (fun i => i.elim0))))))) := by
  rw [StableHlo.nary_result]; congr 1; funext k; fin_cases k <;> rfl

end Joins

/-- Evaluate the host stages at one buffer: each operation at its own result buffer is its function of its operands'
    contents, and at any other buffer leaves what was there. -/
macro "stage_results" : tactic =>
  `(tactic| (simp only [StableHlo.after_cons, StableHlo.after_nil]
             repeat (first
               | rw [nary7_result] | rw [nary6_result]
               | rw [StableHlo.nullary_result] | rw [StableHlo.unary_result] | rw [StableHlo.binary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

section JoinsSimp
variable {x0 x1 x2 x3 x4 x5 x6 y : Ref sig .tc}
theorem nary7_result'
    (f : ((k : Fin 7) → ((![x0, x1, x2, x3, x4, x5, x6] : Fin 7 → Ref sig .tc) k).ty.Contents (Elt Ideal)) → y.ty.Contents (Elt Ideal)) (hxs hy)
    (F : Valuation τ sig (Elt Ideal)) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (fun i => i.elim0)))))))) :=
  nary7_result f hxs hy F
theorem nary6_result'
    (f : ((k : Fin 6) → ((![x0, x1, x2, x3, x4, x5] : Fin 6 → Ref sig .tc) k).ty.Contents (Elt Ideal)) → y.ty.Contents (Elt Ideal)) (hxs hy)
    (F : Valuation τ sig (Elt Ideal)) :
    (StableHlo.nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (fun i => i.elim0))))))) :=
  nary6_result f hxs hy F
end JoinsSimp

macro "stage_results_simp" : tactic =>
  `(tactic| (simp (disch := decide) only [StableHlo.after_cons, StableHlo.after_nil, nary7_result', nary6_result',
      StableHlo.nullary_result', StableHlo.unary_result', StableHlo.binary_result', StableHlo.reshape_result',
      StableHlo.nullary_result_ne', StableHlo.unary_result_ne', StableHlo.binary_result_ne', StableHlo.reshape_result_ne', StableHlo.nary_result_ne']))

/-! ## The arrays the region finds, as the host stages of the argument arrays -/

set_option maxHeartbeats 4000000 in
theorem V_v79 (c : Dev nD) : (V m c main_v79 : S16384x1024.Idx → EReal) = (truncf .bf16 (m ((c : Thread nD τ).loc main_arg0) : FVec Ideal S16384x1024 .f32) bitsLt_bf16_f32 : FVec Ideal S16384x1024 .bf16) := by
  dsimp only [V]
  simp only [hostOps0, hostOps0_1, hostOps0_2, List.flatten_cons, List.flatten_nil, List.append_nil, List.cons_append, List.nil_append]
  stage_results_simp
  try rfl

set_option maxHeartbeats 4000000 in
theorem V_v0 (c : Dev nD) : (V m c main_v0 : S1024x500.Idx → EReal) = (truncf .bf16 (m ((c : Thread nD τ).loc main_arg3) : FVec Ideal S1024x500 .f32) bitsLt_bf16_f32 : FVec Ideal S1024x500 .bf16) := by
  dsimp only [V]
  simp only [hostOps0, hostOps0_1, hostOps0_2, List.flatten_cons, List.flatten_nil, List.append_nil, List.cons_append, List.nil_append]
  stage_results_simp
  try rfl

set_option maxHeartbeats 4000000 in
theorem V_v1 (c : Dev nD) : (V m c main_v1 : S500x200.Idx → EReal) = (truncf .bf16 (m ((c : Thread nD τ).loc main_arg5) : FVec Ideal S500x200 .f32) bitsLt_bf16_f32 : FVec Ideal S500x200 .bf16) := by
  dsimp only [V]
  simp only [hostOps0, hostOps0_1, hostOps0_2, List.flatten_cons, List.flatten_nil, List.append_nil, List.cons_append, List.nil_append]
  stage_results_simp
  try rfl

set_option maxHeartbeats 4000000 in
theorem V_v2 (c : Dev nD) : (V m c main_v2 : S200x200.Idx → EReal) = (truncf .bf16 (m ((c : Thread nD τ).loc main_arg7) : FVec Ideal S200x200 .f32) bitsLt_bf16_f32 : FVec Ideal S200x200 .bf16) := by
  dsimp only [V]
  simp only [hostOps0, hostOps0_1, hostOps0_2, List.flatten_cons, List.flatten_nil, List.append_nil, List.cons_append, List.nil_append]
  stage_results_simp
  try rfl

set_option maxHeartbeats 4000000 in
theorem V_v6 (c : Dev nD) : (V m c main_v6 : S200x1.Idx → EReal) = wld (m ((c : Thread nD τ).loc main_arg9) : FVec Ideal S1224x1 .f32) := by
  dsimp only [V]
  simp only [hostOps0, hostOps0_1, hostOps0_2, List.flatten_cons, List.flatten_nil, List.append_nil, List.cons_append, List.nil_append]
  stage_results_simp
  try rfl

set_option maxHeartbeats 4000000 in
theorem V_v69 (c : Dev nD) : (V m c main_v69 : S1024x7.Idx → EReal) = ucat (m ((c : Thread nD τ).loc main_arg9) : FVec Ideal S1224x1 .f32) (m ((c : Thread nD τ).loc main_arg11) : FVec Ideal S2x3x1024 .f32) := by
  dsimp only [V]
  simp only [hostOps0, hostOps0_1, hostOps0_2, List.flatten_cons, List.flatten_nil, List.append_nil, List.cons_append, List.nil_append]
  stage_results_simp
  try rfl

set_option maxHeartbeats 4000000 in
theorem V_v78 (c : Dev nD) : (V m c main_v78 : S1x8.Idx → EReal) = avec (m ((c : Thread nD τ).loc main_arg9) : FVec Ideal S1224x1 .f32) (m ((c : Thread nD τ).loc main_arg11) : FVec Ideal S2x3x1024 .f32) (m ((c : Thread nD τ).loc main_arg12) : FVec Ideal S2x3x1024 .f32) := by
  dsimp only [V]
  simp only [hostOps0, hostOps0_1, hostOps0_2, List.flatten_cons, List.flatten_nil, List.append_nil, List.cons_append, List.nil_append]
  stage_results_simp
  try rfl

/-! A resident window's block is its whole array. -/

theorem iblk1 (c : Dev nD) (t : Fin cfg0.N) : iblk m c 1 t = V m c main_v69 := by
  obtain ⟨-, -, e1_0, e1_1, -, -, -, -, -, -, -, -, -, -, -, -, -, -, -, -, -, -⟩ := idx_facts t
  funext y
  show V m c main_v69 (((cfg0.win 1).blk t).view.emb y) = V m c main_v69 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 7 + 1 * (y 1).val = (y 1).val; omega

theorem iblk2 (c : Dev nD) (t : Fin cfg0.N) : iblk m c 2 t = V m c main_v78 := by
  obtain ⟨-, -, -, -, e2_0, e2_1, -, -, -, -, -, -, -, -, -, -, -, -, -, -, -, -⟩ := idx_facts t
  funext y
  show V m c main_v78 (((cfg0.win 2).blk t).view.emb y) = V m c main_v78 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 8 + 1 * (y 1).val = (y 1).val; omega

theorem iblk3 (c : Dev nD) (t : Fin cfg0.N) : iblk m c 3 t = V m c main_v0 := by
  obtain ⟨-, -, -, -, -, -, e3_0, e3_1, -, -, -, -, -, -, -, -, -, -, -, -, -, -⟩ := idx_facts t
  funext y
  show V m c main_v0 (((cfg0.win 3).blk t).view.emb y) = V m c main_v0 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 500 + 1 * (y 1).val = (y 1).val; omega

theorem iblk4 (c : Dev nD) (t : Fin cfg0.N) : iblk m c 4 t = V m c main_arg4 := by
  obtain ⟨-, -, -, -, -, -, -, -, e4_0, -, -, -, -, -, -, -, -, -, -, -, -, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 500 + 1 * (y 0).val = (y 0).val; omega

theorem iblk5 (c : Dev nD) (t : Fin cfg0.N) : iblk m c 5 t = V m c main_v1 := by
  obtain ⟨-, -, -, -, -, -, -, -, -, e5_0, e5_1, -, -, -, -, -, -, -, -, -, -, -⟩ := idx_facts t
  funext y
  show V m c main_v1 (((cfg0.win 5).blk t).view.emb y) = V m c main_v1 y
  refine congrArg _ (funext fun a => Fin.ext ?_)
  match a with
  | ⟨0, _⟩ => show win0_5.index t (0 : Fin 2) * 500 + 1 * (y 0).val = (y 0).val; omega
  | ⟨1, _⟩ => show win0_5.index t (1 : Fin 2) * 200 + 1 * (y 1).val = (y 1).val; omega

theorem iblk6 (c : Dev nD) (t : Fin cfg0.N) : iblk m c 6 t = V m c main_arg6 := by
  obtain ⟨-, -, -, -, -, -, -, -, -, -, -, e6_0, -, -, -, -, -, -, -, -, -, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 200 + 1 * (y 0).val = (y 0).val; omega

theorem iblk7 (c : Dev nD) (t : Fin cfg0.N) : iblk m c 7 t = V m c main_v2 := by
  obtain ⟨-, -, -, -, -, -, -, -, -, -, -, -, e7_0, e7_1, -, -, -, -, -, -, -, -⟩ := idx_facts t
  funext y
  show V m c main_v2 (((cfg0.win 7).blk t).view.emb y) = V m c main_v2 y
  refine congrArg _ (funext fun a => Fin.ext ?_)
  match a with
  | ⟨0, _⟩ => show win0_7.index t (0 : Fin 2) * 200 + 1 * (y 0).val = (y 0).val; omega
  | ⟨1, _⟩ => show win0_7.index t (1 : Fin 2) * 200 + 1 * (y 1).val = (y 1).val; omega

theorem iblk8 (c : Dev nD) (t : Fin cfg0.N) : iblk m c 8 t = V m c main_arg8 := by
  obtain ⟨-, -, -, -, -, -, -, -, -, -, -, -, -, -, e8_0, -, -, -, -, -, -, -⟩ := idx_facts t
  funext y
  show V m c main_arg8 (((cfg0.win 8).blk t).view.emb y) = V m c main_arg8 y
  refine congrArg _ (funext fun a => Fin.ext ?_)
  match a with
  | ⟨0, _⟩ => show win0_8.index t (0 : Fin 1) * 200 + 1 * (y 0).val = (y 0).val; omega

theorem iblk9 (c : Dev nD) (t : Fin cfg0.N) : iblk m c 9 t = V m c main_v6 := by
  obtain ⟨-, -, -, -, -, -, -, -, -, -, -, -, -, -, -, e9_0, e9_1, -, -, -, -, -⟩ := idx_facts t
  funext y
  show V m c main_v6 (((cfg0.win 9).blk t).view.emb y) = V m c main_v6 y
  refine congrArg _ (funext fun a => Fin.ext ?_)
  match a with
  | ⟨0, _⟩ => show win0_9.index t (0 : Fin 2) * 200 + 1 * (y 0).val = (y 0).val; omega
  | ⟨1, _⟩ => show win0_9.index t (1 : Fin 2) * 1 + 1 * (y 1).val = (y 1).val; omega

theorem iblk10 (c : Dev nD) (t : Fin cfg0.N) : iblk m c 10 t = V m c main_arg10 := by
  obtain ⟨-, -, -, -, -, -, -, -, -, -, -, -, -, -, -, -, -, e10_0, -, -, -, -⟩ := idx_facts t
  funext y
  show V m c main_arg10 (((cfg0.win 10).blk t).view.emb y) = V m c main_arg10 y
  refine congrArg _ (funext fun a => Fin.ext ?_)
  match a with
  | ⟨0, _⟩ => show win0_10.index t (0 : Fin 1) * 1 + 1 * (y 0).val = (y 0).val; omega

/-- The batch window's block at point t is rows 1024·t … 1024·t + 1023. -/
theorem iblk0 (c : Dev nD) (t : Fin cfg0.N) (r k : Fin 1024) :
    iblk m c 0 t (ix2 r k) = V m c main_v79 (ix2 (⟨t.val * 1024 + r.val, by have h := t.isLt; have hN : cfg0.N = 16 := N_0; have := r.isLt; omega⟩ : Fin 16384) k) := by
  obtain ⟨e0, e1, -⟩ := idx_facts t
  show V m c main_v79 (((cfg0.win 0).blk t).view.emb (ix2 r k)) = _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

theorem hz2 : (![0, 0] : Fin 2 → Nat) = fun _ => 0 := funext fun a => by fin_cases a <;> rfl
theorem hz1 : (![0] : Fin 1 → Nat) = fun _ => 0 := funext fun a => by fin_cases a <;> rfl

set_option maxHeartbeats 4000000 in
/-- What point t writes back to the first result: rows 1024·t … 1024·t + 1023 of the specification's head 0. -/
theorem flushed11_eq (c : Dev nD) (t : Fin cfg0.N) :
    (dats m 0 c).flushed 11 t = ((cfg0.win 11).blk t).view.read (Elt Ideal) (outK 0 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32)) := by
  show (cfg0.win 11).cut (grid0.coords t) ((dats m 0 c).after 11 t) = _
  rw [after0_11]
  unfold out0_11
  rw [View.canon_unit_zero hz2]
  simp only [View.ld_unit_zero (S := S1024x1024) hz2, View.ld_unit_zero (S := S1024x7) hz2, View.ld_unit_zero (S := S1x8) hz2,
    View.ld_unit_zero (S := S1024x500) hz2, View.ld_unit_zero (S := S500) hz1, View.ld_unit_zero (S := S500x200) hz2,
    View.ld_unit_zero (S := S200) hz1, View.ld_unit_zero (S := S200x200) hz2, View.ld_unit_zero (S := S200x1) hz2, View.ld_unit_zero (S := S1) hz1]
  refine funext fun (j : S1024x1.Idx) => ?_
  obtain ⟨r, u, rfl⟩ : ∃ (r : Fin 1024) (u : Fin 1), j = ix2 r u := ⟨j 0, j 1, eq_ix2 j⟩
  obtain rfl : u = 0 := Fin.ext (by omega)
  have hlt : t.val * 1024 + r.val < 16384 := by have h := t.isLt; have hN : cfg0.N = 16 := N_0; have := r.isLt; omega
  have hb : ((cfg0.win 11).blk t).view.emb (ix2 r (0 : Fin 1)) = ix2 (⟨t.val * 1024 + r.val, hlt⟩ : Fin 16384) (0 : Fin 1) := by
    obtain ⟨-, -, -, -, -, -, -, -, -, -, -, -, -, -, -, -, -, -, e11_0, e11_1, -, -⟩ := idx_facts t
    refine funext fun a => Fin.ext ?_
    match a with
    | ⟨0, _⟩ => show win0_11.index t (0 : Fin 2) * 1024 + 1 * r.val = t.val * 1024 + r.val; omega
    | ⟨1, _⟩ => show win0_11.index t (1 : Fin 2) * 1 + 1 * 0 = 0; omega
  show _ = outK 0 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32) (((cfg0.win 11).blk t).view.emb (ix2 r (0 : Fin 1)))
  rw [hb]
  refine (head0_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) r).trans ?_
  have hx : ∀ k : Fin 1024, iblk m c 0 t (ix2 r k) = (m ((c : Thread nD τ).loc main_arg0) : FVec Ideal S16384x1024 .f32) (ix2 (⟨t.val * 1024 + r.val, hlt⟩ : Fin 16384) k) := fun k => by
    rw [iblk0, V_v79]; rfl
  have hD : (∑ h : Fin 200, tower (iblk m c 0 t) (iblk m c 3 t) (iblk m c 4 t) (iblk m c 5 t) (iblk m c 6 t) (iblk m c 7 t) (iblk m c 8 t) (ix2 r h)
        * iblk m c 9 t (ix2 h (0 : Fin 1)))
      = deep (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (⟨t.val * 1024 + r.val, hlt⟩ : Fin 16384) := by
    unfold deep
    refine Finset.sum_congr rfl fun h _ => ?_
    rw [iblk3, iblk4, iblk5, iblk6, iblk7, iblk8, iblk9, V_v0, V_v1, V_v2, V_v6, V_main_arg4, V_main_arg6, V_main_arg8, wld_apply]
    exact congrArg (· * _) (tower_rows _ _ _ _ _ _ _ _ _ r hx h)
  have hbl : iblk m c 10 t (ix1 (0 : Fin 1)) = (m ((c : Thread nD τ).loc main_arg10) : FVec Ideal S1 .f32) (ix1 (0 : Fin 1)) := by rw [iblk10, V_main_arg10]
  rw [hD, hbl, iblk1, iblk2, V_v69, V_v78]
  simp only [hx]
  exact congrArg Ideal.logistic (KRow.cubic_task0 _ _ _ _ _ _)

set_option maxHeartbeats 4000000 in
/-- What point t writes back to the second result: rows 1024·t … 1024·t + 1023 of the specification's head 1. -/
theorem flushed12_eq (c : Dev nD) (t : Fin cfg0.N) :
    (dats m 0 c).flushed 12 t = ((cfg0.win 12).blk t).view.read (Elt Ideal) (outK 1 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32)) := by
  show (cfg0.win 12).cut (grid0.coords t) ((dats m 0 c).after 12 t) = _
  rw [after0_12]
  unfold out0_12
  rw [View.canon_unit_zero hz2]
  simp only [View.ld_unit_zero (S := S1024x1024) hz2, View.ld_unit_zero (S := S1024x7) hz2, View.ld_unit_zero (S := S1x8) hz2,
    View.ld_unit_zero (S := S1024x500) hz2, View.ld_unit_zero (S := S500) hz1, View.ld_unit_zero (S := S500x200) hz2,
    View.ld_unit_zero (S := S200) hz1, View.ld_unit_zero (S := S200x200) hz2, View.ld_unit_zero (S := S200x1) hz2, View.ld_unit_zero (S := S1) hz1]
  refine funext fun (j : S1024x1.Idx) => ?_
  obtain ⟨r, u, rfl⟩ : ∃ (r : Fin 1024) (u : Fin 1), j = ix2 r u := ⟨j 0, j 1, eq_ix2 j⟩
  obtain rfl : u = 0 := Fin.ext (by omega)
  have hlt : t.val * 1024 + r.val < 16384 := by have h := t.isLt; have hN : cfg0.N = 16 := N_0; have := r.isLt; omega
  have hb : ((cfg0.win 12).blk t).view.emb (ix2 r (0 : Fin 1)) = ix2 (⟨t.val * 1024 + r.val, hlt⟩ : Fin 16384) (0 : Fin 1) := by
    obtain ⟨-, -, -, -, -, -, -, -, -, -, -, -, -, -, -, -, -, -, -, -, e12_0, e12_1⟩ := idx_facts t
    refine funext fun a => Fin.ext ?_
    match a with
    | ⟨0, _⟩ => show win0_12.index t (0 : Fin 2) * 1024 + 1 * r.val = t.val * 1024 + r.val; omega
    | ⟨1, _⟩ => show win0_12.index t (1 : Fin 2) * 1 + 1 * 0 = 0; omega
  show _ = outK 1 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32) (((cfg0.win 12).blk t).view.emb (ix2 r (0 : Fin 1)))
  rw [hb]
  refine (head1_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) r).trans ?_
  have hx : ∀ k : Fin 1024, iblk m c 0 t (ix2 r k) = (m ((c : Thread nD τ).loc main_arg0) : FVec Ideal S16384x1024 .f32) (ix2 (⟨t.val * 1024 + r.val, hlt⟩ : Fin 16384) k) := fun k => by
    rw [iblk0, V_v79]; rfl
  have hD : (∑ h : Fin 200, tower (iblk m c 0 t) (iblk m c 3 t) (iblk m c 4 t) (iblk m c 5 t) (iblk m c 6 t) (iblk m c 7 t) (iblk m c 8 t) (ix2 r h)
        * iblk m c 9 t (ix2 h (0 : Fin 1)))
      = deep (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (⟨t.val * 1024 + r.val, hlt⟩ : Fin 16384) := by
    unfold deep
    refine Finset.sum_congr rfl fun h _ => ?_
    rw [iblk3, iblk4, iblk5, iblk6, iblk7, iblk8, iblk9, V_v0, V_v1, V_v2, V_v6, V_main_arg4, V_main_arg6, V_main_arg8, wld_apply]
    exact congrArg (· * _) (tower_rows _ _ _ _ _ _ _ _ _ r hx h)
  have hbl : iblk m c 10 t (ix1 (0 : Fin 1)) = (m ((c : Thread nD τ).loc main_arg10) : FVec Ideal S1 .f32) (ix1 (0 : Fin 1)) := by rw [iblk10, V_main_arg10]
  rw [hD, hbl, iblk1, iblk2, V_v69, V_v78]
  simp only [hx]
  exact congrArg Ideal.logistic (KRow.cubic_task1 _ _ _ _ _ _)

/-- An index of the result is in point t's block iff its row lies in rows 1024·t … 1024·t + 1023. -/
theorem mem_blk11 (t : Fin cfg0.N) (i : S16384x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v80_0).slice (win0_11.rect t)).set ↔ _
  rw [View.set_slice_whole, Rect.mem_set_unit]
  exact Iff.rfl

/-- Every row of the result is written back by the point that holds it. -/
theorem cover11 (i : S16384x1.Idx) : ∃ t : Fin cfg0.N, (cfg0.win 11).flush t = true ∧ i ∈ ((cfg0.win 11).blk t).view.set := by
  have hi0 : (i 0).val < 16384 := (i 0).isLt
  have hi1 : (i 1).val < 1 := (i 1).isLt
  have hN : cfg0.N = 16 := N_0
  let t : Fin cfg0.N := ⟨(i 0).val / 1024, by omega⟩
  obtain ⟨-, -, -, -, -, -, -, -, -, -, -, -, -, -, -, -, -, -, e11_0, e11_1, -, -⟩ := idx_facts t
  have ht : t.val = (i 0).val / 1024 := rfl
  refine ⟨t, flush0_11 t, ?_⟩
  rw [mem_blk11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 1 ≤ (i 1).val ∧ (i 1).val < win0_11.index t (1 : Fin 2) * 1 + 1; omega

/-- The result after the run is the specification's head, whole. -/
theorem final11 (c : Dev nD) : (dats m 0 c).arrAt 11 cfg0.N = outK 0 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32) :=
  (dats m 0 c).arrAt_eq_of_cover 11 _ (fun t _ => flushed11_eq m c t) cover11

/-- An index of the result is in point t's block iff its row lies in rows 1024·t … 1024·t + 1023. -/
theorem mem_blk12 (t : Fin cfg0.N) (i : S16384x1.Idx) :
    i ∈ ((cfg0.win 12).blk t).view.set ↔ ∀ a : Fin 2, win0_12.index t a * S1024x1.size a ≤ (i a).val ∧ (i a).val < win0_12.index t a * S1024x1.size a + S1024x1.size a := by
  show i ∈ ((View.whole main_v80_1).slice (win0_12.rect t)).set ↔ _
  rw [View.set_slice_whole, Rect.mem_set_unit]
  exact Iff.rfl

/-- Every row of the result is written back by the point that holds it. -/
theorem cover12 (i : S16384x1.Idx) : ∃ t : Fin cfg0.N, (cfg0.win 12).flush t = true ∧ i ∈ ((cfg0.win 12).blk t).view.set := by
  have hi0 : (i 0).val < 16384 := (i 0).isLt
  have hi1 : (i 1).val < 1 := (i 1).isLt
  have hN : cfg0.N = 16 := N_0
  let t : Fin cfg0.N := ⟨(i 0).val / 1024, by omega⟩
  obtain ⟨-, -, -, -, -, -, -, -, -, -, -, -, -, -, -, -, -, -, -, -, e12_0, e12_1⟩ := idx_facts t
  have ht : t.val = (i 0).val / 1024 := rfl
  refine ⟨t, flush0_12 t, ?_⟩
  rw [mem_blk12]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 1 ≤ (i 1).val ∧ (i 1).val < win0_12.index t (1 : Fin 2) * 1 + 1; omega

/-- The result after the run is the specification's head, whole. -/
theorem final12 (c : Dev nD) : (dats m 0 c).arrAt 12 cfg0.N = outK 1 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32) :=
  (dats m 0 c).arrAt_eq_of_cover 12 _ (fun t _ => flushed12_eq m c t) cover12

/-! ## The run, read -/

/-- Every weakly fair execution of the program ends with the two results at the specification's two heads of the argument
    arrays, and the argument arrays as they began. -/
theorem run : θ_run defs (onTc (τ := τ) (main (F := Ideal))) ⟨m, fun _ => 0, ρ⟩ fun r => ∀ c : Dev nD,
      r.2.mem ((c : Thread nD τ).loc main_v80_0) = outK 0 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32)
      ∧ r.2.mem ((c : Thread nD τ).loc main_v80_1) = outK 1 (m ((c : Thread nD τ).loc main_arg0) : FVec Ideal S16384x1024 .f32) (m ((c : Thread nD τ).loc main_arg3) : FVec Ideal S1024x500 .f32) (m ((c : Thread nD τ).loc main_arg4) : FVec Ideal S500 .f32) (m ((c : Thread nD τ).loc main_arg5) : FVec Ideal S500x200 .f32) (m ((c : Thread nD τ).loc main_arg6) : FVec Ideal S200 .f32) (m ((c : Thread nD τ).loc main_arg7) : FVec Ideal S200x200 .f32) (m ((c : Thread nD τ).loc main_arg8) : FVec Ideal S200 .f32) (m ((c : Thread nD τ).loc main_arg9) : FVec Ideal S1224x1 .f32) (m ((c : Thread nD τ).loc main_arg10) : FVec Ideal S1 .f32) (m ((c : Thread nD τ).loc main_arg11) : FVec Ideal S2x3x1024 .f32) (m ((c : Thread nD τ).loc main_arg12) : FVec Ideal S2x3x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 11).trans (final11 m c), ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.KValue

end
-- ==== Proof.RefValue.lean ====
/-
  The reference program's two results, read index by index on the extended reals, are the specification's function of
  the argument arrays.

  The reference is a straight line of array operations. Read at an index, each one is an arithmetic operation on the
  operands at an index: the three dense layers with the rectifier give the tower; the row sum (taken from zero) and the
  three cross layers  e ↦ (s · e) · c + b + x  give the embedding; the concatenation of the embedding (1024 columns)
  with the tower's row (200 columns), multiplied into the head's weight column, is a sum over 1224 indices that splits
  into the first 1024 and the last 200; the head's bias is added and the logistic is spelt 1 / (1 + exp (−z)).
  No step uses more than the commutative-monoid laws of + on the extended reals, so nothing needs to be finite.
-/
import proofs.«174844_j12816182411985_2_alg».proof.Proof.Gen.ReferenceIdeal.Read
import proofs.«174844_j12816182411985_2_alg».proof.Proof.Spec

noncomputable section

namespace Cert.ReferenceIdeal.RefValue

open Cert.ReferenceIdeal Cert.ReferenceIdeal.Gen Idealize.ShloMosaic Idealize.ShloMosaic.ValueIdx DenseSpec DcnSpec

/-! ## Indices are determined by their coordinates -/

theorem idx1_ext {n : Nat} (u v : (⟨1, ![n]⟩ : Shape).Idx) (h0 : u 0 = v 0) : u = v := by
  funext a; match a with | ⟨0, _⟩ => exact h0

theorem idx2_ext {n0 n1 : Nat} (u v : (⟨2, ![n0, n1]⟩ : Shape).Idx) (h0 : u 0 = v 0) (h1 : u 1 = v 1) : u = v := by
  funext a; match a with | ⟨0, _⟩ => exact h0 | ⟨1, _⟩ => exact h1

theorem idx3_ext {n0 n1 n2 : Nat} (u v : (⟨3, ![n0, n1, n2]⟩ : Shape).Idx) (h0 : u 0 = v 0) (h1 : u 1 = v 1)
    (h2 : u 2 = v 2) : u = v := by
  funext a; match a with | ⟨0, _⟩ => exact h0 | ⟨1, _⟩ => exact h1 | ⟨2, _⟩ => exact h2

/-! ## The tower -/

abbrev A (s : Shape) := (⟨s, .f32⟩ : BufTy).Contents (Elt Ideal)

/-- The first dense layer with its rectifier. -/
theorem layer1 (x0 : A S16384x1024) (x3 : A S1024x500) (x4 : A S500) :
    Read.val_main_v4 (F := Ideal) x0 x3 x4 = relu (dense x0 x3 (row x4)) := by
  funext i
  rw [Read.val_main_v4_apply, Read.val_main_v3_apply, Read.val_main_v0_apply, Read.val_main_v2_apply,
    Read.val_main_v1_apply, Read.val_main_call0_v0_apply, Read.val_main_call0_cst_apply]
  have hl : ∀ k : Fin 1024, Read.lidx_main_v0 i k = ix2 (i 0) k := fun k => idx2_ext _ _ rfl rfl
  have hr : ∀ k : Fin 1024, Read.ridx_main_v0 i k = ix2 k (i 1) := fun k => idx2_ext _ _ rfl rfl
  have hb : Read.idx_main_v1 (Read.idx_main_v2 i) = ix1 (i 1) := idx1_ext _ _ rfl
  simp only [hl, hr, hb]
  rfl

/-- The second dense layer with its rectifier. -/
theorem layer2 (x0 : A S16384x1024) (x3 : A S1024x500) (x4 : A S500) (x5 : A S500x200) (x6 : A S200) :
    Read.val_main_v9 (F := Ideal) x0 x3 x4 x5 x6 = relu (dense (relu (dense x0 x3 (row x4))) x5 (row x6)) := by
  funext i
  rw [Read.val_main_v9_apply, Read.val_main_v8_apply, Read.val_main_v5_apply, Read.val_main_v7_apply,
    Read.val_main_v6_apply, Read.val_main_call1_v0_apply, Read.val_main_call1_cst_apply, layer1]
  have hl : ∀ k : Fin 500, Read.lidx_main_v5 i k = ix2 (i 0) k := fun k => idx2_ext _ _ rfl rfl
  have hr : ∀ k : Fin 500, Read.ridx_main_v5 i k = ix2 k (i 1) := fun k => idx2_ext _ _ rfl rfl
  have hb : Read.idx_main_v6 (Read.idx_main_v7 i) = ix1 (i 1) := idx1_ext _ _ rfl
  simp only [hl, hr, hb]
  rfl

/-- The third dense layer with its rectifier: the tower. -/
theorem tower_eq (x0 : A S16384x1024) (x3 : A S1024x500) (x4 : A S500) (x5 : A S500x200) (x6 : A S200)
    (x7 : A S200x200) (x8 : A S200) :
    Read.val_main_v14 (F := Ideal) x0 x3 x4 x5 x6 x7 x8 = tower x0 x3 x4 x5 x6 x7 x8 := by
  funext i
  rw [Read.val_main_v14_apply, Read.val_main_v13_apply, Read.val_main_v10_apply, Read.val_main_v12_apply,
    Read.val_main_v11_apply, Read.val_main_call2_v0_apply, Read.val_main_call2_cst_apply, layer2]
  have hl : ∀ k : Fin 200, Read.lidx_main_v10 i k = ix2 (i 0) k := fun k => idx2_ext _ _ rfl rfl
  have hr : ∀ k : Fin 200, Read.ridx_main_v10 i k = ix2 k (i 1) := fun k => idx2_ext _ _ rfl rfl
  have hb : Read.idx_main_v11 (Read.idx_main_v12 i) = ix1 (i 1) := idx1_ext _ _ rfl
  simp only [hl, hr, hb]
  rfl

/-! ## The row sum and the cross weights at an index -/

/-- The row sum, taken from zero, as a one-column matrix. -/
theorem rowsum (x0 : A S16384x1024) (i : S16384x1.Idx) :
    Read.val_main_v16 (F := Ideal) x0 i = 0 + ∑ k : Fin 1024, x0 (ix2 (i 0) k) := by
  rw [Read.val_main_v16_apply, Read.val_main_v15_apply, Read.val_main_cst_apply]
  have h : ∀ k : Fin 1024, Read.idx_main_v15 (Read.idx_main_v16 i) k = ix2 (i 0) k := fun k => idx2_ext _ _ rfl rfl
  simp only [h]
  rw [Ideal.ofBits_def, Ideal.ofBits_zero_f32]
  rfl

theorem cw_0_0 (x11 : A S2x3x1024) (i : S16384x1024.Idx) :
    Read.val_main_v22 (F := Ideal) x11 i = crow x11 0 0 (i 1) := by
  rw [Read.val_main_v22_apply, Read.val_main_v21_apply, Read.val_main_v20_apply, Read.val_main_v19_apply]
  exact congrArg x11 (idx3_ext _ _ rfl rfl (Fin.ext (Nat.mod_eq_of_lt (i 1).isLt)))

theorem cb_0_0 (x12 : A S2x3x1024) (i : S16384x1024.Idx) :
    Read.val_main_v27 (F := Ideal) x12 i = crow x12 0 0 (i 1) := by
  rw [Read.val_main_v27_apply, Read.val_main_v26_apply, Read.val_main_v25_apply, Read.val_main_v24_apply]
  exact congrArg x12 (idx3_ext _ _ rfl rfl (Fin.ext (Nat.mod_eq_of_lt (i 1).isLt)))

theorem cw_0_1 (x11 : A S2x3x1024) (i : S16384x1024.Idx) :
    Read.val_main_v35 (F := Ideal) x11 i = crow x11 0 1 (i 1) := by
  rw [Read.val_main_v35_apply, Read.val_main_v34_apply, Read.val_main_v33_apply, Read.val_main_v32_apply]
  exact congrArg x11 (idx3_ext _ _ rfl rfl (Fin.ext (Nat.mod_eq_of_lt (i 1).isLt)))

theorem cb_0_1 (x12 : A S2x3x1024) (i : S16384x1024.Idx) :
    Read.val_main_v40 (F := Ideal) x12 i = crow x12 0 1 (i 1) := by
  rw [Read.val_main_v40_apply, Read.val_main_v39_apply, Read.val_main_v38_apply, Read.val_main_v37_apply]
  exact congrArg x12 (idx3_ext _ _ rfl rfl (Fin.ext (Nat.mod_eq_of_lt (i 1).isLt)))

theorem cw_0_2 (x11 : A S2x3x1024) (i : S16384x1024.Idx) :
    Read.val_main_v48 (F := Ideal) x11 i = crow x11 0 2 (i 1) := by
  rw [Read.val_main_v48_apply, Read.val_main_v47_apply, Read.val_main_v46_apply, Read.val_main_v45_apply]
  exact congrArg x11 (idx3_ext _ _ rfl rfl (Fin.ext (Nat.mod_eq_of_lt (i 1).isLt)))

theorem cb_0_2 (x12 : A S2x3x1024) (i : S16384x1024.Idx) :
    Read.val_main_v53 (F := Ideal) x12 i = crow x12 0 2 (i 1) := by
  rw [Read.val_main_v53_apply, Read.val_main_v52_apply, Read.val_main_v51_apply, Read.val_main_v50_apply]
  exact congrArg x12 (idx3_ext _ _ rfl rfl (Fin.ext (Nat.mod_eq_of_lt (i 1).isLt)))

theorem cw_1_0 (x11 : A S2x3x1024) (i : S16384x1024.Idx) :
    Read.val_main_v72 (F := Ideal) x11 i = crow x11 1 0 (i 1) := by
  rw [Read.val_main_v72_apply, Read.val_main_v71_apply, Read.val_main_v70_apply, Read.val_main_v69_apply]
  exact congrArg x11 (idx3_ext _ _ rfl rfl (Fin.ext (Nat.mod_eq_of_lt (i 1).isLt)))

theorem cb_1_0 (x12 : A S2x3x1024) (i : S16384x1024.Idx) :
    Read.val_main_v77 (F := Ideal) x12 i = crow x12 1 0 (i 1) := by
  rw [Read.val_main_v77_apply, Read.val_main_v76_apply, Read.val_main_v75_apply, Read.val_main_v74_apply]
  exact congrArg x12 (idx3_ext _ _ rfl rfl (Fin.ext (Nat.mod_eq_of_lt (i 1).isLt)))

theorem cw_1_1 (x11 : A S2x3x1024) (i : S16384x1024.Idx) :
    Read.val_main_v85 (F := Ideal) x11 i = crow x11 1 1 (i 1) := by
  rw [Read.val_main_v85_apply, Read.val_main_v84_apply, Read.val_main_v83_apply, Read.val_main_v82_apply]
  exact congrArg x11 (idx3_ext _ _ rfl rfl (Fin.ext (Nat.mod_eq_of_lt (i 1).isLt)))

theorem cb_1_1 (x12 : A S2x3x1024) (i : S16384x1024.Idx) :
    Read.val_main_v90 (F := Ideal) x12 i = crow x12 1 1 (i 1) := by
  rw [Read.val_main_v90_apply, Read.val_main_v89_apply, Read.val_main_v88_apply, Read.val_main_v87_apply]
  exact congrArg x12 (idx3_ext _ _ rfl rfl (Fin.ext (Nat.mod_eq_of_lt (i 1).isLt)))

theorem cw_1_2 (x11 : A S2x3x1024) (i : S16384x1024.Idx) :
    Read.val_main_v98 (F := Ideal) x11 i = crow x11 1 2 (i 1) := by
  rw [Read.val_main_v98_apply, Read.val_main_v97_apply, Read.val_main_v96_apply, Read.val_main_v95_apply]
  exact congrArg x11 (idx3_ext _ _ rfl rfl (Fin.ext (Nat.mod_eq_of_lt (i 1).isLt)))

theorem cb_1_2 (x12 : A S2x3x1024) (i : S16384x1024.Idx) :
    Read.val_main_v103 (F := Ideal) x12 i = crow x12 1 2 (i 1) := by
  rw [Read.val_main_v103_apply, Read.val_main_v102_apply, Read.val_main_v101_apply, Read.val_main_v100_apply]
  exact congrArg x12 (idx3_ext _ _ rfl rfl (Fin.ext (Nat.mod_eq_of_lt (i 1).isLt)))

/-! ## The cross layers -/

/-- The three cross layers of task 0, at row r and feature c. -/
theorem emb_task0 (x0 : A S16384x1024) (x11 x12 : A S2x3x1024) (r : Fin 16384) (c : Fin 1024) :
    Read.val_main_v55 (F := Ideal) x0 x11 x12 (ix2 r c) =
      emb3 (0 + ∑ k : Fin 1024, x0 (ix2 r k)) (fun k => x0 (ix2 r k)) (crow x11 0 0) (crow x11 0 1) (crow x11 0 2)
        (crow x12 0 0) (crow x12 0 1) (crow x12 0 2) c := by
  rw [Read.val_main_v55_apply, Read.val_main_v54_apply, Read.val_main_v49_apply, Read.val_main_v44_apply, Read.val_main_v43_apply,
    Read.val_main_v42_apply, Read.val_main_v41_apply, Read.val_main_v36_apply, Read.val_main_v31_apply, Read.val_main_v30_apply,
    Read.val_main_v29_apply, Read.val_main_v28_apply, Read.val_main_v23_apply, Read.val_main_v18_apply, Read.val_main_v17_apply,
    rowsum, cw_0_0, cw_0_1, cw_0_2, cb_0_0, cb_0_1, cb_0_2]
  rfl

/-- The three cross layers of task 1, at row r and feature c. -/
theorem emb_task1 (x0 : A S16384x1024) (x11 x12 : A S2x3x1024) (r : Fin 16384) (c : Fin 1024) :
    Read.val_main_v105 (F := Ideal) x0 x11 x12 (ix2 r c) =
      emb3 (0 + ∑ k : Fin 1024, x0 (ix2 r k)) (fun k => x0 (ix2 r k)) (crow x11 1 0) (crow x11 1 1) (crow x11 1 2)
        (crow x12 1 0) (crow x12 1 1) (crow x12 1 2) c := by
  rw [Read.val_main_v105_apply, Read.val_main_v104_apply, Read.val_main_v99_apply, Read.val_main_v94_apply, Read.val_main_v93_apply,
    Read.val_main_v92_apply, Read.val_main_v91_apply, Read.val_main_v86_apply, Read.val_main_v81_apply, Read.val_main_v80_apply,
    Read.val_main_v79_apply, Read.val_main_v78_apply, Read.val_main_v73_apply, Read.val_main_v68_apply, Read.val_main_v67_apply,
    rowsum, cw_1_0, cw_1_1, cw_1_2, cb_1_0, cb_1_1, cb_1_2]
  rfl

/-! ## The concatenation and the head's product -/

/-- The joined matrix at a column below 1024 is the first piece there. -/
theorem concat_left (e : A S16384x1024) (d : A S16384x200) (r : Fin 16384) (k : Fin 1024) :
    concatenate S16384x1224 1 [⟨S16384x1024, e⟩, ⟨S16384x200, d⟩] concatenates_S16384x1024_S16384x200_S16384x1224_d1
      (ix2 r (⟨k.val, by omega⟩ : Fin 1224)) = e (ix2 r k) :=
  concatenate_pair_apply_left (t := S16384x1224) (s₁ := S16384x1024) (s₂ := S16384x200) 1 e d
    concatenates_S16384x1024_S16384x200_S16384x1224_d1 (ix2 r (⟨k.val, by omega⟩ : Fin 1224)) rfl (ix2 r k) (fun b => by
    match b with
    | ⟨0, _⟩ => rfl
    | ⟨1, _⟩ => rfl)

/-- The joined matrix at column 1024 + h is the second piece at column h. -/
theorem concat_right (e : A S16384x1024) (d : A S16384x200) (r : Fin 16384) (h : Fin 200) :
    concatenate S16384x1224 1 [⟨S16384x1024, e⟩, ⟨S16384x200, d⟩] concatenates_S16384x1024_S16384x200_S16384x1224_d1
      (ix2 r (⟨1024 + h.val, by omega⟩ : Fin 1224)) = d (ix2 r h) :=
  concatenate_pair_apply_right (t := S16384x1224) (s₁ := S16384x1024) (s₂ := S16384x200) 1 e d
    concatenates_S16384x1024_S16384x200_S16384x1224_d1 (ix2 r (⟨1024 + h.val, by omega⟩ : Fin 1224)) rfl rfl (ix2 r h) (fun b hb => by
    match b with
    | ⟨0, _⟩ => rfl
    | ⟨1, _⟩ => exact absurd rfl hb) (by show h.val + 1024 = 1024 + h.val; omega)

/-- A sum over 1224 indices is the sum over the first 1024 plus the sum over the last 200. -/
theorem sum_split (f : Fin 1224 → EReal) :
    ∑ k : Fin 1224, f k = (∑ k : Fin 1024, f ⟨k.val, by omega⟩) + ∑ h : Fin 200, f ⟨1024 + h.val, by omega⟩ :=
  Fin.sum_univ_add (a := 1024) (b := 200) f

/-- The joined matrix times the head's weight column, at row r. -/
theorem head_sum (e : A S16384x1024) (d : A S16384x200) (x9 : A S1224x1) (r : Fin 16384) :
    ∑ k : Fin 1224, concatenate S16384x1224 1 [⟨S16384x1024, e⟩, ⟨S16384x200, d⟩]
        concatenates_S16384x1024_S16384x200_S16384x1224_d1 (ix2 r k) * x9 (ix2 k (0 : Fin 1))
      = (∑ k : Fin 1024, e (ix2 r k) * wcol x9 k) + ∑ h : Fin 200, d (ix2 r h) * wdeep x9 h := by
  rw [sum_split]
  refine congrArg₂ (· + ·) (Finset.sum_congr rfl fun k _ => ?_) (Finset.sum_congr rfl fun h _ => ?_)
  · rw [concat_left]; rfl
  · rw [concat_right]; rfl

/-! ## The two results -/

/-- The reference's result for task 0 is the specification's head of task 0. -/
theorem ref_out0 (x0 : (⟨S16384x1024, .f32⟩ : BufTy).Contents (Elt Ideal)) (x3 : (⟨S1024x500, .f32⟩ : BufTy).Contents (Elt Ideal))
    (x4 : (⟨S500, .f32⟩ : BufTy).Contents (Elt Ideal)) (x5 : (⟨S500x200, .f32⟩ : BufTy).Contents (Elt Ideal))
    (x6 : (⟨S200, .f32⟩ : BufTy).Contents (Elt Ideal)) (x7 : (⟨S200x200, .f32⟩ : BufTy).Contents (Elt Ideal))
    (x8 : (⟨S200, .f32⟩ : BufTy).Contents (Elt Ideal)) (x9 : (⟨S1224x1, .f32⟩ : BufTy).Contents (Elt Ideal))
    (x10 : (⟨S1, .f32⟩ : BufTy).Contents (Elt Ideal)) (x11 x12 : (⟨S2x3x1024, .f32⟩ : BufTy).Contents (Elt Ideal)) :
    Read.val_main_v66 (F := Ideal) x0 x3 x4 x5 x6 x7 x8 x9 x10 x11 x12
      = outR 0 x0 x3 x4 x5 x6 x7 x8 x9 x10 x11 x12 := by
  funext idx
  obtain ⟨r, rfl⟩ : ∃ r : Fin 16384, idx = ix2 r (0 : Fin 1) := ⟨idx 0, idx2_ext _ _ rfl (Fin.ext (Nat.lt_one_iff.mp (idx 1).isLt))⟩
  rw [Read.val_main_v66_apply, Read.val_main_v65_apply, Read.val_main_v64_apply, Read.val_main_v63_apply, Read.val_main_v62_apply, Read.val_main_v61_apply, Read.val_main_v60_apply, Read.val_main_v59_apply, Read.val_main_v58_apply, Read.val_main_v57_apply,
    Read.val_main_cst_1_apply, Read.val_main_cst_0_apply]
  have hl : ∀ k : Fin 1224, Read.lidx_main_v57 (ix2 r (0 : Fin 1)) k = ix2 r k := fun k => idx2_ext _ _ rfl rfl
  have hr : ∀ k : Fin 1224, Read.ridx_main_v57 (ix2 r (0 : Fin 1)) k = ix2 k (0 : Fin 1) := fun k => idx2_ext _ _ rfl rfl
  have hb : Read.idx_main_v58 (Read.idx_main_v59 (ix2 r (0 : Fin 1))) = ix1 (0 : Fin 1) := idx1_ext _ _ rfl
  simp only [hl, hr, hb]
  unfold Read.val_main_v56
  rw [head_sum, tower_eq]
  simp only [emb_task0]
  rfl

/-- The reference's result for task 1 is the specification's head of task 1. -/
theorem ref_out1 (x0 : (⟨S16384x1024, .f32⟩ : BufTy).Contents (Elt Ideal)) (x3 : (⟨S1024x500, .f32⟩ : BufTy).Contents (Elt Ideal))
    (x4 : (⟨S500, .f32⟩ : BufTy).Contents (Elt Ideal)) (x5 : (⟨S500x200, .f32⟩ : BufTy).Contents (Elt Ideal))
    (x6 : (⟨S200, .f32⟩ : BufTy).Contents (Elt Ideal)) (x7 : (⟨S200x200, .f32⟩ : BufTy).Contents (Elt Ideal))
    (x8 : (⟨S200, .f32⟩ : BufTy).Contents (Elt Ideal)) (x9 : (⟨S1224x1, .f32⟩ : BufTy).Contents (Elt Ideal))
    (x10 : (⟨S1, .f32⟩ : BufTy).Contents (Elt Ideal)) (x11 x12 : (⟨S2x3x1024, .f32⟩ : BufTy).Contents (Elt Ideal)) :
    Read.val_main_v116 (F := Ideal) x0 x3 x4 x5 x6 x7 x8 x9 x10 x11 x12
      = outR 1 x0 x3 x4 x5 x6 x7 x8 x9 x10 x11 x12 := by
  funext idx
  obtain ⟨r, rfl⟩ : ∃ r : Fin 16384, idx = ix2 r (0 : Fin 1) := ⟨idx 0, idx2_ext _ _ rfl (Fin.ext (Nat.lt_one_iff.mp (idx 1).isLt))⟩
  rw [Read.val_main_v116_apply, Read.val_main_v115_apply, Read.val_main_v114_apply, Read.val_main_v113_apply, Read.val_main_v112_apply, Read.val_main_v111_apply, Read.val_main_v110_apply, Read.val_main_v109_apply, Read.val_main_v108_apply, Read.val_main_v107_apply,
    Read.val_main_cst_3_apply, Read.val_main_cst_2_apply]
  have hl : ∀ k : Fin 1224, Read.lidx_main_v107 (ix2 r (0 : Fin 1)) k = ix2 r k := fun k => idx2_ext _ _ rfl rfl
  have hr : ∀ k : Fin 1224, Read.ridx_main_v107 (ix2 r (0 : Fin 1)) k = ix2 k (0 : Fin 1) := fun k => idx2_ext _ _ rfl rfl
  have hb : Read.idx_main_v108 (Read.idx_main_v109 (ix2 r (0 : Fin 1))) = ix1 (0 : Fin 1) := idx1_ext _ _ rfl
  simp only [hl, hr, hb]
  unfold Read.val_main_v106
  rw [head_sum, tower_eq]
  simp only [emb_task1]
  rfl

end Cert.ReferenceIdeal.RefValue

end
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.Algebra.lean ====
/-
  The algebra behind the two heads of a deep-and-cross network.

  Three cross layers e ↦ (s · e) · c + b + x from e = x give, at each feature, a cubic in the row sum s:
    emb3 = x · (s³·c0·c1·c2 + s²·c1·c2 + s·c2 + 1) + (s²·c1·c2·b0 + s·c2·b1 + b2).
  Multiplying by the head weight w and summing over the features, the powers of s come out of the sums, which is the
  collapsed logit. Distributivity is what is used, and it fails on the extended reals at the infinities; so the identity
  is proved over the reals and carried to extended reals that are (coercions of) reals.

  Also here: the logistic is the quotient 1 / (1 + exp (−z)) with 1 the value of the f32 word of one; the deep tower of
  real inputs and real weights is real; and the two heads agree on real arguments.
-/
import proofs.«174844_j12816182411985_2_alg».proof.Proof.Spec
import proofs.«174844_j12816182411985_2_alg».proof.Proof.LibMoments

noncomputable section

namespace DcnSpec

open Idealize.ShloMosaic Idealize.ShloMosaic.ValueIdx DenseSpec Cert.LibMoments

/-! ## The cubic in the row sum, over the reals -/

/-- Over the reals, with s any real (the row sum in the application): the cubic in s with the summed coefficients is the
    sum over the features of the three-layer embedding times the head weight. -/
theorem logit_real {ι : Type*} [Fintype ι] (x w c0 c1 c2 b0 b1 b2 : ι → ℝ) (s D bl : ℝ) :
    ((((s * s) * s) * (∑ k, x k * (((w k * c0 k) * c1 k) * c2 k))
        + (s * s) * ((∑ k, x k * ((w k * c1 k) * c2 k)) + (∑ k, ((w k * c1 k) * c2 k) * b0 k)))
        + s * ((∑ k, x k * (w k * c2 k)) + (∑ k, (w k * c2 k) * b1 k))
        + ((∑ k, x k * w k) + (∑ k, w k * b2 k)))
      + (D + bl)
      = ((∑ k, ((s * ((s * ((s * x k) * c0 k + b0 k + x k)) * c1 k + b1 k + x k)) * c2 k + b2 k + x k) * w k) + D) + bl := by
  rw [add_assoc _ D bl]
  congr 1
  simp only [Finset.mul_sum, ← Finset.sum_add_distrib]
  exact Finset.sum_congr rfl fun k _ => by ring

/-! ## The same on extended reals that are real -/

/-- The kernel's collapsed logit is the reference's when every entry is a real number. -/
theorem logit_eq (x w c0 c1 c2 b0 b1 b2 : Fin 1024 → EReal) (D bl : EReal)
    (hx : ∀ k, IsReal (x k)) (hw : ∀ k, IsReal (w k))
    (hc0 : ∀ k, IsReal (c0 k)) (hc1 : ∀ k, IsReal (c1 k)) (hc2 : ∀ k, IsReal (c2 k))
    (hb0 : ∀ k, IsReal (b0 k)) (hb1 : ∀ k, IsReal (b1 k)) (hb2 : ∀ k, IsReal (b2 k))
    (hD : IsReal D) (hbl : IsReal bl) :
    logitK x w c0 c1 c2 b0 b1 b2 D bl = logitR x w c0 c1 c2 b0 b1 b2 D bl := by
  choose xr hxr using hx
  choose wr hwr using hw
  choose c0r hc0r using hc0
  choose c1r hc1r using hc1
  choose c2r hc2r using hc2
  choose b0r hb0r using hb0
  choose b1r hb1r using hb1
  choose b2r hb2r using hb2
  obtain rfl : x = fun k => ((xr k : ℝ) : EReal) := funext hxr
  obtain rfl : w = fun k => ((wr k : ℝ) : EReal) := funext hwr
  obtain rfl : c0 = fun k => ((c0r k : ℝ) : EReal) := funext hc0r
  obtain rfl : c1 = fun k => ((c1r k : ℝ) : EReal) := funext hc1r
  obtain rfl : c2 = fun k => ((c2r k : ℝ) : EReal) := funext hc2r
  obtain rfl : b0 = fun k => ((b0r k : ℝ) : EReal) := funext hb0r
  obtain rfl : b1 = fun k => ((b1r k : ℝ) : EReal) := funext hb1r
  obtain rfl : b2 = fun k => ((b2r k : ℝ) : EReal) := funext hb2r
  obtain ⟨Dr, rfl⟩ := hD
  obtain ⟨blr, rfl⟩ := hbl
  unfold logitK logitR emb3
  simp only [zero_add]
  simp only [← EReal.coe_mul, ← EReal.coe_add, coe_fintype_sum]
  exact congrArg _ (logit_real xr wr c0r c1r c2r b0r b1r b2r (∑ k, xr k) Dr blr)

/-! ## The logistic as a quotient -/

/-- The f32 word of one denotes 1. -/
theorem one_eq : one = 1 := by
  show Ideal.ofBits .f32 0x3F800000#32 = 1
  simp [Ideal.ofBits, Ideal.ieee, -EReal.coe_mul]; norm_num

/-- The logistic of z is 1 / (1 + exp (−z)), the ones being the value of the f32 word of one. -/
theorem logistic_eq (z : EReal) : Ideal.logistic z = Ideal.div one (one + Ideal.exp (-z)) := by
  rw [one_eq]; rfl

/-! ## The deep tower of reals is real -/

/-- A dense layer of real inputs, weights and biases is real at every entry. -/
theorem isReal_dense {R K P : Nat} (a : Mat R K) (w : Mat K P) (b : Mat 1 P) (ha : ∀ i, IsReal (a i))
    (hw : ∀ i, IsReal (w i)) (hb : ∀ i, IsReal (b i)) (i : (⟨2, ![R, P]⟩ : Shape).Idx) : IsReal (dense a w b i) :=
  (IsReal.fintype_sum _ fun k => (ha _).mul (hw _)).add (hb _)

/-- The rectifier of a real matrix is real at every entry. -/
theorem isReal_relu {R P : Nat} (z : Mat R P) (hz : ∀ i, IsReal (z i)) (i : (⟨2, ![R, P]⟩ : Shape).Idx) :
    IsReal (relu z i) := by
  show IsReal (max (z i) (Ideal.ofBits .f32 0x00000000#32))
  rw [Ideal.ofBits_zero_f32]
  exact (hz i).max IsReal.zero

/-- A real vector as a one-row matrix is real at every entry. -/
theorem isReal_row {P : Nat} (b : V1 P) (hb : ∀ i, IsReal (b i)) (i : (⟨2, ![1, P]⟩ : Shape).Idx) : IsReal (row b i) :=
  hb _

/-- The deep tower of real inputs and real weights and biases is real at every entry. -/
theorem isReal_tower {B : Nat} (x : Mat B 1024) (W1 : Mat 1024 500) (b1 : V1 500) (W2 : Mat 500 200) (b2 : V1 200)
    (W3 : Mat 200 200) (b3 : V1 200) (hx : ∀ i, IsReal (x i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i))
    (i : (⟨2, ![B, 200]⟩ : Shape).Idx) : IsReal (tower x W1 b1 W2 b2 W3 b3 i) := by
  unfold tower
  exact isReal_relu _ (isReal_dense _ _ _ (isReal_relu _ (isReal_dense _ _ _ (isReal_relu _
    (isReal_dense _ _ _ hx hW1 (isReal_row b1 hb1))) hW2 (isReal_row b2 hb2))) hW3 (isReal_row b3 hb3)) i

/-- The deep tower's contribution to the logit of a row is real when everything it is made of is. -/
theorem isReal_deep {B : Nat} (x : Mat B 1024) (W1 : Mat 1024 500) (b1 : V1 500) (W2 : Mat 500 200) (b2 : V1 200)
    (W3 : Mat 200 200) (b3 : V1 200) (Wl : Mat 1224 1) (hx : ∀ i, IsReal (x i)) (hW1 : ∀ i, IsReal (W1 i))
    (hb1 : ∀ i, IsReal (b1 i)) (hW2 : ∀ i, IsReal (W2 i)) (hb2 : ∀ i, IsReal (b2 i)) (hW3 : ∀ i, IsReal (W3 i))
    (hb3 : ∀ i, IsReal (b3 i)) (hWl : ∀ i, IsReal (Wl i)) (b : Fin B) : IsReal (deep x W1 b1 W2 b2 W3 b3 Wl b) := by
  unfold deep
  exact IsReal.fintype_sum _ fun h => (isReal_tower x W1 b1 W2 b2 W3 b3 hx hW1 hb1 hW2 hb2 hW3 hb3 _).mul (hWl _)

/-! ## The two heads agree -/

/-- On real arguments the kernel's head of task i is the reference's. -/
theorem out_eq (i : Fin 2) (x : Mat 16384 1024) (W1 : Mat 1024 500) (b1 : V1 500) (W2 : Mat 500 200) (b2 : V1 200)
    (W3 : Mat 200 200) (b3 : V1 200) (Wl : Mat 1224 1) (bl : V1 1) (cw cb : Cube)
    (hx : ∀ i, IsReal (x i)) (hW1 : ∀ i, IsReal (W1 i)) (hb1 : ∀ i, IsReal (b1 i)) (hW2 : ∀ i, IsReal (W2 i))
    (hb2 : ∀ i, IsReal (b2 i)) (hW3 : ∀ i, IsReal (W3 i)) (hb3 : ∀ i, IsReal (b3 i)) (hWl : ∀ i, IsReal (Wl i))
    (hbl : ∀ i, IsReal (bl i)) (hcw : ∀ i, IsReal (cw i)) (hcb : ∀ i, IsReal (cb i)) :
    outK i x W1 b1 W2 b2 W3 b3 Wl bl cw cb = outR i x W1 b1 W2 b2 W3 b3 Wl bl cw cb := by
  funext idx
  unfold outK outR
  rw [logistic_eq, logit_eq (fun k => x (ix2 (idx 0) k)) (wcol Wl) (crow cw i 0) (crow cw i 1) (crow cw i 2)
    (crow cb i 0) (crow cb i 1) (crow cb i 2) (deep x W1 b1 W2 b2 W3 b3 Wl (idx 0)) (bl (ix1 (0 : Fin 1)))
    (fun _ => hx _) (fun _ => hWl _) (fun _ => hcw _) (fun _ => hcw _)
    (fun _ => hcw _) (fun _ => hcb _) (fun _ => hcb _) (fun _ => hcb _)
    (isReal_deep x W1 b1 W2 b2 W3 b3 Wl hx hW1 hb1 hW2 hb2 hW3 hb3 hWl _) (hbl _)]

end DcnSpec

end
-- ==== Proof.Finite.lean ====
/-
  The precondition of the certificate says, for each float input array `x`, that the conjunction over all entries of
  `|x| < +∞` is true. Here that statement is read back: under the precondition every entry of every float input
  array is a real number (neither `+∞` nor `-∞`).

  * `isReal_of_abs_lt_top`: an extended real `x` with `max x (-x) < ⊤` is a real.
  * `ofBits_inf`: the 32-bit pattern `0x7F800000` denotes `⊤`.
  * `real_of_all`: one conjunct, for an array of any shape.
  * `real_of_pre`: all eleven float arrays that are read.
-/
import proofs.«174844_j12816182411985_2_alg».proof.Defs
import proofs.«174844_j12816182411985_2_alg».proof.Proof.Gen.Pre_finite_inputs
import proofs.«174844_j12816182411985_2_alg».proof.Proof.LibMoments
import Idealize.ShloMosaic.Lib.ReduceAll
import Idealize.ShloMosaic.Lib.ValueIdx

noncomputable section

namespace Cert.KernelIdeal.Finite

open Idealize.ShloMosaic Idealize.ShloMosaic.ValueIdx Cert.LibMoments

/-- The scalar shape has exactly one index. -/
instance subsingleton_scalarIdx : Subsingleton Cert.Pre_finite_inputs.S_.Idx :=
  ⟨fun a b => funext fun d => d.elim0⟩

/-- An extended real whose absolute value `max x (-x)` lies strictly below `+∞` is a real number. -/
theorem isReal_of_abs_lt_top (x : EReal) (h : max x (-x) < ⊤) : IsReal x := by
  refine IsReal.of_ne ?_ ?_
  · rintro rfl; simp at h
  · rintro rfl; simp at h

/-- The pattern `0x7F800000` of the 32-bit format denotes `+∞`. -/
theorem ofBits_inf : Ideal.ofBits .f32 0x7F800000#32 = (⊤ : EReal) := by
  simp [Ideal.ofBits, Ideal.ieee]

/-- One conjunct of the precondition: when the conjunction over all entries of `|x| < +∞` is true, every entry of `x`
    is a real number. -/
theorem real_of_all {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) h hu ix0 = 1#1)
    (i : s.Idx) : IsReal (x i) := by
  have hi := Host.reduce_andi_all _ _ h hu ix0 e i
  have hlt : max (x i) (-(x i)) < (⊤ : EReal) := by
    have h2 : BitVec.ofBool (decide (max (x i) (-(x i)) < Ideal.ofBits .f32 0x7F800000#32)) = 1#1 := hi
    rw [ofBits_inf] at h2
    by_contra hn
    rw [decide_eq_false hn] at h2
    exact absurd h2 (by decide)
  exact isReal_of_abs_lt_top _ hlt

/-- Under the precondition every float input array consists of real numbers. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i)) := by
  have e := congrFun (h c) ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨e0, _⟩, e3⟩, e4⟩, e5⟩, e6⟩, e7⟩, e8⟩, e9⟩, e10⟩, e11⟩, e12⟩ := e
  exact ⟨real_of_all _ _ _ _ e0, real_of_all _ _ _ _ e3, real_of_all _ _ _ _ e4, real_of_all _ _ _ _ e5, real_of_all _ _ _ _ e6, real_of_all _ _ _ _ e7, real_of_all _ _ _ _ e8, real_of_all _ _ _ _ e9, real_of_all _ _ _ _ e10, real_of_all _ _ _ _ e11, real_of_all _ _ _ _ e12⟩

end Cert.KernelIdeal.Finite
-- ==== Proof.lean ====
/-
  The certificate's claims, assembled.

  The program is a deep-and-cross network's two heads. Its two frames (the word-level program and its idealization) are
  proved in this directory's two frame modules: @main is host operations followed by one pipelined region whose body loads its eleven
  input blocks whole and stores its two output blocks whole. The reference's frame is its run with the results dropped. The
  idealization rewrote nothing, so that conjunct is trivial.

  The algebraic claim: after its run the kernel's two results are the collapsed heads (a cubic in the row sum, its
  coefficients seven products of a row with columns the host prepared, plus six constants, plus the shared deep tower's
  contribution, under the logistic); the reference's two results are the heads as written (three cross layers per task, the
  embedding joined to the tower's output, one product with the head's weight column, the bias, 1 / (1 + exp (−z))). The two
  agree when every input entry is a real number, which the precondition gives: the cubic is the three layers expanded,
  and expanding uses distributivity, which holds on the reals and fails at the infinities.
-/
import proofs.«174844_j12816182411985_2_alg».proof.Defs
import proofs.«174844_j12816182411985_2_alg».proof.Proof.Gen.Kernel
import proofs.«174844_j12816182411985_2_alg».proof.Proof.Gen.KernelIdeal
import proofs.«174844_j12816182411985_2_alg».proof.Proof.Gen.ReferenceIdeal
import proofs.«174844_j12816182411985_2_alg».proof.Proof.Gen.Pre_finite_inputs
import proofs.«174844_j12816182411985_2_alg».proof.Proof.Gen.ReferenceIdeal.Run
import proofs.«174844_j12816182411985_2_alg».proof.Proof.Gen.ReferenceIdeal.Read
import proofs.«174844_j12816182411985_2_alg».proof.Proof.FrameKernel
import proofs.«174844_j12816182411985_2_alg».proof.Proof.FrameKernelIdeal
import proofs.«174844_j12816182411985_2_alg».proof.Proof.KernelValue
import proofs.«174844_j12816182411985_2_alg».proof.Proof.RefValue
import proofs.«174844_j12816182411985_2_alg».proof.Proof.Algebra
import proofs.«174844_j12816182411985_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two results: the collapsed heads equal the heads as written on real inputs. -/
theorem algebraic : Cert.algebraic_KernelIdeal_ReferenceIdeal := by
  intro m ρ m' ρ' hpre hagree
  refine ⟨fun c => DcnSpec.outK 0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => DcnSpec.outK 1 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    obtain ⟨r0, r3, r4, r5, r6, r7, r8, r9, r10, r11, r12⟩ := Cert.KernelIdeal.Finite.real_of_pre m hpre c
    rw [Cert.ReferenceIdeal.Read.val_main_v66_eq, Cert.ReferenceIdeal.RefValue.ref_out0, a0, a3, a4, a5, a6, a7, a8, a9, a10, a11, a12]
    exact (DcnSpec.out_eq 0 _ _ _ _ _ _ _ _ _ _ _ r0 r3 r4 r5 r6 r7 r8 r9 r10 r11 r12).symm
  · obtain ⟨a0, a1, a2, a3, a4, a5, a6, a7, a8, a9, a10, a11, a12⟩ := hagree c
    obtain ⟨r0, r3, r4, r5, r6, r7, r8, r9, r10, r11, r12⟩ := Cert.KernelIdeal.Finite.real_of_pre m hpre c
    rw [Cert.ReferenceIdeal.Read.val_main_v116_eq, Cert.ReferenceIdeal.RefValue.ref_out1, a0, a3, a4, a5, a6, a7, a8, a9, a10, a11, a12]
    exact (DcnSpec.out_eq 1 _ _ _ _ _ _ _ _ _ _ _ r0 r3 r4 r5 r6 r7 r8 r9 r10 r11 r12).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
